-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x33x96x96x96 : Shape := ⟨5, ![2, 33, 96, 96, 96]⟩
abbrev S2x96x96x96 : Shape := ⟨4, ![2, 96, 96, 96]⟩
abbrev S_ : Shape := ⟨0, ![]⟩

class Facts : Prop where
  bcast_S_S2x33x96x96x96 : S_.BroadcastsInDim S2x33x96x96x96 (![] : Fin 0 → Fin S2x33x96x96x96.rank)
  reducesTo_S2x33x96x96x96_S_d0_1_2_3_4 : S2x33x96x96x96.ReducesTo [0, 1, 2, 3, 4] S_
  h_S_ : 0 < S_.numel

variable [Facts]

def fn {F : FTy → Type} [FloatOps F] (main_arg0 : FVec F S2x33x96x96x96 .f32) (main_arg1 : IVec S2x96x96x96 32) : IVec S_ 1 :=
  let main_v0 : FVec F S2x33x96x96x96 .f32 := Host.absf main_arg0
  let main_cst : FVec F S_ .f32 := constant S_ .f32 0x7F800000#32
  let main_v1 : FVec F S2x33x96x96x96 .f32 := broadcastInDim S2x33x96x96x96 ![] bcast_S_S2x33x96x96x96 main_cst
  let main_v2 : IVec S2x33x96x96x96 1 := cmpf .olt main_v0 main_v1
  let main_c : IVec S_ 1 := constantI S_ 1 1#1
  let main_v3 : IVec S_ 1 := (fun x v => Host.reduce IntOp.andi x v reducesTo_S2x33x96x96x96_S_d0_1_2_3_4 h_S_) main_v2 main_c
  main_v3
-- ==== Kernel.lean ====
abbrev S2x33x96x96x96 : Shape := ⟨5, ![2, 33, 96, 96, 96]⟩
abbrev S2x96x96x96 : Shape := ⟨4, ![2, 96, 96, 96]⟩
abbrev S2x33x884736 : Shape := ⟨3, ![2, 33, 884736]⟩
abbrev S2x1x884736 : Shape := ⟨3, ![2, 1, 884736]⟩
abbrev S2x3x33 : Shape := ⟨3, ![2, 3, 33]⟩
abbrev S1x33x24576 : Shape := ⟨3, ![1, 33, 24576]⟩
abbrev S1x1x24576 : Shape := ⟨3, ![1, 1, 24576]⟩
abbrev S1x3x33 : Shape := ⟨3, ![1, 3, 33]⟩
abbrev S33x1 : Shape := ⟨2, ![33, 1]⟩
abbrev S33x24576 : Shape := ⟨2, ![33, 24576]⟩
abbrev S1x24576 : Shape := ⟨2, ![1, 24576]⟩
abbrev S33 : Shape := ⟨1, ![33]⟩
abbrev S1x33 : Shape := ⟨2, ![1, 33]⟩
abbrev S1x1x33 : Shape := ⟨3, ![1, 1, 33]⟩
abbrev S2x1x33 : Shape := ⟨3, ![2, 1, 33]⟩
abbrev S2x33 : Shape := ⟨2, ![2, 33]⟩
abbrev S_ : Shape := ⟨0, ![]⟩

abbrev nBuf : Space → Nat
  | .hbm => 35
  | .vmem => 9
  | .smem => 0
  | _ => 0

abbrev bufTy : (tb : Table) → Fin (tcTables nBuf tb) → BufTy
  | .hbm, ⟨0, _⟩ => ⟨S2x33x96x96x96, .f32⟩
  | .hbm, ⟨1, _⟩ => ⟨S2x96x96x96, .i32⟩
  | .hbm, ⟨2, _⟩ => ⟨S2x33x884736, .f32⟩
  | .hbm, ⟨3, _⟩ => ⟨S2x1x884736, .i32⟩
  | .hbm, ⟨4, _⟩ => ⟨S2x3x33, .f32⟩
  | .hbm, ⟨5, _⟩ => ⟨S2x1x33, .f32⟩
  | .hbm, ⟨6, _⟩ => ⟨S2x33, .f32⟩
  | .hbm, ⟨7, _⟩ => ⟨S_, .f32⟩
  | .hbm, ⟨8, _⟩ => ⟨S33, .f32⟩
  | .hbm, ⟨9, _⟩ => ⟨S2x1x33, .f32⟩
  | .hbm, ⟨10, _⟩ => ⟨S2x33, .f32⟩
  | .hbm, ⟨11, _⟩ => ⟨S_, .f32⟩
  | .hbm, ⟨12, _⟩ => ⟨S33, .f32⟩
  | .hbm, ⟨13, _⟩ => ⟨S2x1x33, .f32⟩
  | .hbm, ⟨14, _⟩ => ⟨S2x33, .f32⟩
  | .hbm, ⟨15, _⟩ => ⟨S_, .f32⟩
  | .hbm, ⟨16, _⟩ => ⟨S33, .f32⟩
  | .hbm, ⟨17, _⟩ => ⟨S_, .f32⟩
  | .hbm, ⟨18, _⟩ => ⟨S33, .f32⟩
  | .hbm, ⟨19, _⟩ => ⟨S33, .f32⟩
  | .hbm, ⟨20, _⟩ => ⟨S_, .f32⟩
  | .hbm, ⟨21, _⟩ => ⟨S33, .f32⟩
  | .hbm, ⟨22, _⟩ => ⟨S33, .f32⟩
  | .hbm, ⟨23, _⟩ => ⟨S33, .f32⟩
  | .hbm, ⟨24, _⟩ => ⟨S_, .f32⟩
  | .hbm, ⟨25, _⟩ => ⟨S33, .f32⟩
  | .hbm, ⟨26, _⟩ => ⟨S33, .f32⟩
  | .hbm, ⟨27, _⟩ => ⟨S33, .f32⟩
  | .hbm, ⟨28, _⟩ => ⟨S_, .f32⟩
  | .hbm, ⟨29, _⟩ => ⟨S33, .f32⟩
  | .hbm, ⟨30, _⟩ => ⟨S33, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x33x24576, .f32⟩
  | .local _ .vmem, ⟨1, _⟩ => ⟨S1x33x24576, .f32⟩
  | .local _ .vmem, ⟨2, _⟩ => ⟨S1x1x24576, .i32⟩
  | .local _ .vmem, ⟨3, _⟩ => ⟨S1x1x24576, .i32⟩
  | .local _ .vmem, ⟨4, _⟩ => ⟨S1x3x33, .f32⟩
  | .local _ .vmem, ⟨5, _⟩ => ⟨S1x3x33, .f32⟩
  | .local _ .vmem, ⟨6, _⟩ => ⟨S33x1, .f32⟩
  | .local _ .vmem, ⟨7, _⟩ => ⟨S33x1, .f32⟩
  | .local _ .vmem, ⟨8, _⟩ => ⟨S33x1, .f32⟩
  | _, _ => ⟨S2x33x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 36], ![false, false]⟩

def k0_cond2 (i : grid0.Coords) : BitVec 1 :=
  let arg1 : BitVec 32 := BitVec.ofNat 32 (i 1).val
  let c35_i32 : BitVec 32 := 35#32
  let v36 : BitVec 1 := Scalar.cmpi .eq arg1 c35_i32
  let v37 : BitVec 32 := Scalar.extui v36
  let c0_i32_21 : BitVec 32 := 0#32
  let v38 : BitVec 1 := Scalar.cmpi .ne v37 c0_i32_21
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x33x24576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x24576 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x33 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x33x96x96x96_S2x33x884736 : S2x33x96x96x96.ShapeCasts S2x33x884736
  shapeCasts_S2x96x96x96_S2x1x884736 : S2x96x96x96.ShapeCasts S2x1x884736
  inb_S33x1_S33x1_0_0 : ∀ a, (![0, 0] : Fin 2 → Nat) a + S33x1.size a ≤ S33x1.size a
  h_S33x1 : 0 < S33x1.numel
  shapeCasts_S33x1_S33x1 : S33x1.ShapeCasts S33x1
  inb_S1x33x24576_S1x33x24576_0_0_0 : ∀ a, (![0, 0, 0] : Fin 3 → Nat) a + S1x33x24576.size a ≤ S1x33x24576.size a
  h_S1x33x24576 : 0 < S1x33x24576.numel
  shapeCasts_S1x33x24576_S33x24576 : S1x33x24576.ShapeCasts S33x24576
  inb_S1x1x24576_S1x1x24576_0_0_0 : ∀ a, (![0, 0, 0] : Fin 3 → Nat) a + S1x1x24576.size a ≤ S1x1x24576.size a
  h_S1x1x24576 : 0 < S1x1x24576.numel
  shapeCasts_S1x1x24576_S1x24576 : S1x1x24576.ShapeCasts S1x24576
  iota_S33x24576_d0_w32 : S33x24576.Iotas .tc 32 [0]
  broadcasts_S1x24576_S33x24576 : S1x24576.Broadcasts S33x24576
  reduces_S33x24576_S33 : S33x24576.Reduces [1] S33
  shapeCasts_S33_S33x1 : S33.ShapeCasts S33x1
  natLt_1_32 : 1 < 32
  transposes_S33x1_p1_0_S1x33 : S33x1.Transposes [1, 0] S1x33
  inb_S1x3x33_S1x1x33_0_0_0 : ∀ a, (![0, 0, 0] : Fin 3 → Nat) a + S1x1x33.size a ≤ S1x3x33.size a
  h_S1x1x33 : 0 < S1x1x33.numel
  shapeCasts_S1x1x33_S1x33 : S1x1x33.ShapeCasts S1x33
  shapeCasts_S1x33_S1x1x33 : S1x33.ShapeCasts S1x1x33
  inb_S1x3x33_S1x1x33_0_1_0 : ∀ a, (![0, 1, 0] : Fin 3 → Nat) a + S1x1x33.size a ≤ S1x3x33.size a
  inb_S1x3x33_S1x1x33_0_2_0 : ∀ a, (![0, 2, 0] : Fin 3 → Nat) a + S1x1x33.size a ≤ S1x3x33.size a
  slices_S2x3x33_S2x1x33_0_0_0 : S2x3x33.Slices ![0, 0, 0] S2x1x33
  shapeCasts_S2x1x33_S2x33 : S2x1x33.ShapeCasts S2x33
  reducesTo_S2x33_S33_d0 : S2x33.ReducesTo [0] S33
  h_S_ : 0 < S_.numel
  slices_S2x3x33_S2x1x33_0_1_0 : S2x3x33.Slices ![0, 1, 0] S2x1x33
  slices_S2x3x33_S2x1x33_0_2_0 : S2x3x33.Slices ![0, 2, 0] S2x1x33
  bcast_S_S33 : S_.BroadcastsInDim S33 (![] : Fin 0 → Fin S33.rank)
  reducesTo_S33_S_d0 : S33.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x33x24576.size a ≤ S2x33x884736.size a
  hwx0_0 : ∀ i : grid0.Coords, EltTy.bits .f32 = 32 ∨ (Rect.block (s := S2x33x884736) S1x33x24576.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x24576.size a ≤ S2x1x884736.size a
  hwx0_1 : ∀ i : grid0.Coords, EltTy.bits .i32 = 32 ∨ (Rect.block (s := S2x1x884736) S1x1x24576.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x33.size a ≤ S2x3x33.size a
  hwx0_2 : ∀ i : grid0.Coords, EltTy.bits .f32 = 32 ∨ (Rect.block (s := S2x3x33) S1x3x33.size (cc0_transform_2 i) (hinb0_2 i)).WholeWords (EltTy.packing .f32)

variable [Facts₀]

abbrev win0_0 : Pipeline.Window sig grid0 :=
  Pipeline.Window.ofSpec (Memref.whole main_v0) S1x33x24576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x24576.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x33.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x33x96x96x96 : Shape := ⟨5, ![2, 33, 96, 96, 96]⟩
abbrev S2x96x96x96 : Shape := ⟨4, ![2, 96, 96, 96]⟩
abbrev S2x1x96x96x96 : Shape := ⟨5, ![2, 1, 96, 96, 96]⟩
abbrev S33 : Shape := ⟨1, ![33]⟩
abbrev S1x33x1x1x1 : Shape := ⟨5, ![1, 33, 1, 1, 1]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2x33x96x96x96, .f32⟩
  | .hbm, ⟨1, _⟩ => ⟨S2x96x96x96, .i32⟩
  | .hbm, ⟨2, _⟩ => ⟨S2x1x96x96x96, .i32⟩
  | .hbm, ⟨3, _⟩ => ⟨S33, .i32⟩
  | .hbm, ⟨4, _⟩ => ⟨S1x33x1x1x1, .i32⟩
  | .hbm, ⟨5, _⟩ => ⟨S2x33x96x96x96, .i32⟩
  | .hbm, ⟨6, _⟩ => ⟨S2x33x96x96x96, .i32⟩
  | .hbm, ⟨7, _⟩ => ⟨S2x33x96x96x96, .i1⟩
  | .hbm, ⟨8, _⟩ => ⟨S2x33x96x96x96, .f32⟩
  | .hbm, ⟨9, _⟩ => ⟨S2x33x96x96x96, .f32⟩
  | .hbm, ⟨10, _⟩ => ⟨S_, .f32⟩
  | .hbm, ⟨11, _⟩ => ⟨S33, .f32⟩
  | .hbm, ⟨12, _⟩ => ⟨S2x33x96x96x96, .f32⟩
  | .hbm, ⟨13, _⟩ => ⟨S_, .f32⟩
  | .hbm, ⟨14, _⟩ => ⟨S33, .f32⟩
  | .hbm, ⟨15, _⟩ => ⟨S_, .f32⟩
  | .hbm, ⟨16, _⟩ => ⟨S33, .f32⟩
  | .hbm, ⟨17, _⟩ => ⟨S_, .f32⟩
  | .hbm, ⟨18, _⟩ => ⟨S33, .f32⟩
  | .hbm, ⟨19, _⟩ => ⟨S33, .f32⟩
  | .hbm, ⟨20, _⟩ => ⟨S_, .f32⟩
  | .hbm, ⟨21, _⟩ => ⟨S33, .f32⟩
  | .hbm, ⟨22, _⟩ => ⟨S33, .f32⟩
  | .hbm, ⟨23, _⟩ => ⟨S33, .f32⟩
  | .hbm, ⟨24, _⟩ => ⟨S_, .f32⟩
  | .hbm, ⟨25, _⟩ => ⟨S33, .f32⟩
  | .hbm, ⟨26, _⟩ => ⟨S33, .f32⟩
  | .hbm, ⟨27, _⟩ => ⟨S33, .f32⟩
  | .hbm, ⟨28, _⟩ => ⟨S_, .f32⟩
  | .hbm, ⟨29, _⟩ => ⟨S33, .f32⟩
  | .hbm, ⟨30, _⟩ => ⟨S33, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S2x33x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S2x96x96x96_S2x1x96x96x96_0_2_3_4 : S2x96x96x96.BroadcastsInDim S2x1x96x96x96 (![0, 2, 3, 4] : Fin 4 → Fin S2x1x96x96x96.rank)
  bcast_S33_S1x33x1x1x1_1 : S33.BroadcastsInDim S1x33x1x1x1 (![1] : Fin 1 → Fin S1x33x1x1x1.rank)
  bcast_S2x1x96x96x96_S2x33x96x96x96_0_1_2_3_4 : S2x1x96x96x96.BroadcastsInDim S2x33x96x96x96 (![0, 1, 2, 3, 4] : Fin 5 → Fin S2x33x96x96x96.rank)
  bcast_S1x33x1x1x1_S2x33x96x96x96_0_1_2_3_4 : S1x33x1x1x1.BroadcastsInDim S2x33x96x96x96 (![0, 1, 2, 3, 4] : Fin 5 → Fin S2x33x96x96x96.rank)
  reducesTo_S2x33x96x96x96_S33_d0_2_3_4 : S2x33x96x96x96.ReducesTo [0, 2, 3, 4] S33
  h_S_ : 0 < S_.numel
  bcast_S_S33 : S_.BroadcastsInDim S33 (![] : Fin 0 → Fin S33.rank)
  reducesTo_S33_S_d0 : S33.ReducesTo [0] S_

variable [Facts₀]

class Facts : Prop extends Facts₀ where

variable [Facts]
-- ==== Proof.Pieces.lean ====
/-
  What one grid point's body leaves in the three running sums it carries from point to point.

  Each of the three column accumulators (one entry per class) is written by whole-buffer stores only, so what a
  point leaves in it is the payload of its last store, applied to the block of scores, the block of labels and
  the accumulator's contents when the store's operands were loaded. At the first tile of a batch the body first
  overwrites the accumulator with zeros and reads those zeros back, so there the accumulator's previous contents
  do not enter; at every other tile they are what the previous point left. Nothing here depends on what a float
  is: the statements hold for every reading of the float operations.
-/
import proofs.«165124_j10222022164824_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords)
  (arg2 : Memref sig .tc .vmem S1x33x24576 .f32) (harg2 : arg2.IsWhole)
  (arg3 : Memref sig .tc .vmem S1x1x24576 .i32) (harg3 : arg3.IsWhole)
  (arg4 : Memref sig .tc .vmem S1x3x33 .f32) (harg4 : arg4.IsWhole)
  (arg5 : Memref sig .tc .vmem S33x1 .f32) (harg5 : arg5.IsWhole)
  (arg6 : Memref sig .tc .vmem S33x1 .f32) (harg6 : arg6.IsWhole)
  (arg7 : Memref sig .tc .vmem S33x1 .f32) (harg7 : arg7.IsWhole)
  (x0 : Vec F S1x33x24576 .f32) (x1 : Vec F S1x1x24576 .i32) (xs0 xs1 xs2 : Vec F S33x1 .f32)

/-! ## A tile that is neither the first nor the last of its batch -/

section Middle
variable (hc0 : ¬cond0_0 i) (hc1 : ¬cond0_1 i)

/-- The masked-score accumulator: the previous contents plus this tile's masked row sums. -/
theorem middle_masked :
    sout0_B_0 c i arg2 harg2 arg3 harg3 arg4 harg4 arg5 harg5 arg6 harg6 arg7 harg7 hc0 hc1 x0 x1 xs0 xs1 xs2
      = k0_pay10 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  rw [View.canon_unit_zero zero2]
  simp only [View.readAt_eq_ld, harg2.read_unread, harg3.read_unread, harg5.read_unread,
    View.ld_unit_zero (S := S1x33x24576) zero3, View.ld_unit_zero (S := S1x1x24576) zero3, View.ld_unit_zero (S := S33x1) zero2]

/-- The squared-score accumulator: the previous contents plus this tile's row sums of squares. -/
theorem middle_squares :
    sout0_B_1 c i arg2 harg2 arg3 harg3 arg4 harg4 arg5 harg5 arg6 harg6 arg7 harg7 hc0 hc1 x0 x1 xs0 xs1 xs2
      = k0_pay11 x0 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  rw [View.canon_unit_zero zero2]
  simp only [View.readAt_eq_ld, harg2.read_unread, harg6.read_unread,
    View.ld_unit_zero (S := S1x33x24576) zero3, View.ld_unit_zero (S := S33x1) zero2]

/-- The label-count accumulator: the previous contents plus this tile's per-class label counts. -/
theorem middle_counts :
    sout0_B_2 c i arg2 harg2 arg3 harg3 arg4 harg4 arg5 harg5 arg6 harg6 arg7 harg7 hc0 hc1 x0 x1 xs0 xs1 xs2
      = k0_pay1 (k0_pay12 x1 xs2) := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero zero2]
  simp only [View.readAt_eq_ld, harg3.read_unread, harg7.read_unread,
    View.ld_unit_zero (S := S1x1x24576) zero3, View.ld_unit_zero (S := S33x1) zero2]

end Middle

/-! ## The last tile of a batch

The accumulators are updated exactly as at a middle tile (the copy into the output block comes after, and reads
them back without changing them). -/

section Last
variable (hc0 : ¬cond0_0 i) (hc1 : cond0_1 i)

theorem last_masked :
    sout0_C_0 c i arg2 harg2 arg3 harg3 arg4 harg4 arg5 harg5 arg6 harg6 arg7 harg7 hc0 hc1 x0 x1 xs0 xs1 xs2
      = k0_pay10 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero zero2]
  simp only [View.readAt_eq_ld, harg2.read_unread, harg3.read_unread, harg5.read_unread,
    View.ld_unit_zero (S := S1x33x24576) zero3, View.ld_unit_zero (S := S1x1x24576) zero3, View.ld_unit_zero (S := S33x1) zero2]

theorem last_squares :
    sout0_C_1 c i arg2 harg2 arg3 harg3 arg4 harg4 arg5 harg5 arg6 harg6 arg7 harg7 hc0 hc1 x0 x1 xs0 xs1 xs2
      = k0_pay11 x0 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero zero2]
  simp only [View.readAt_eq_ld, harg2.read_unread, harg6.read_unread,
    View.ld_unit_zero (S := S1x33x24576) zero3, View.ld_unit_zero (S := S33x1) zero2]

theorem last_counts :
    sout0_C_2 c i arg2 harg2 arg3 harg3 arg4 harg4 arg5 harg5 arg6 harg6 arg7 harg7 hc0 hc1 x0 x1 xs0 xs1 xs2
      = k0_pay1 (k0_pay12 x1 xs2) := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero zero2]
  simp only [View.readAt_eq_ld, harg3.read_unread, harg7.read_unread,
    View.ld_unit_zero (S := S1x1x24576) zero3, View.ld_unit_zero (S := S33x1) zero2]

/-- The output block at the last tile: three row stores, rows 0, 1, 2 of the [1, 3, 33] block, each an
    accumulator read back AFTER this tile's update and transposed into a row. -/
theorem last_output :
    out0_C_2 c i arg2 harg2 arg3 harg3 arg4 harg4 arg5 harg5 arg6 harg6 arg7 harg7 hc0 hc1 x0 x1 xs0 xs1 xs2
      = View.canon
        [ (⟨Rect.unit ![0, 2, 0] ![1, 1, 33] inb_S1x3x33_S1x1x33_0_2_0, k0_pay4 (k0_pay1 (k0_pay12 x1 xs2))⟩ : View.Piece (Elt F) S1x3x33 .f32),
          ⟨Rect.unit ![0, 1, 0] ![1, 1, 33] inb_S1x3x33_S1x1x33_0_1_0, k0_pay3 (k0_pay11 x0 xs1)⟩,
          ⟨Rect.unit ![0, 0, 0] ![1, 1, 33] inb_S1x3x33_S1x1x33_0_0_0, k0_pay2 (k0_pay10 x0 x1 xs0)⟩ ] := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.readCov_unit_zero (S := S33x1) _ zero2, View.readCov_unit_zero (S := S33x1) _ zero2, View.readCov_unit_zero (S := S33x1) _ zero2]
  simp only [View.readAt_eq_ld, harg2.read_unread, harg3.read_unread, harg5.read_unread, harg6.read_unread, harg7.read_unread,
    View.ld_unit_zero (S := S1x33x24576) zero3, View.ld_unit_zero (S := S1x1x24576) zero3, View.ld_unit_zero (S := S33x1) zero2]

end Last

/-! ## The first tile of a batch

The body stores a column of zeros into each accumulator, loads it back, and adds this tile's sums: the
accumulator's earlier contents are overwritten before they are read, so they do not appear. -/

section First
variable (hc0 : cond0_0 i) (hc1 : ¬cond0_1 i)

theorem first_masked :
    sout0_A_0 c i arg2 harg2 arg3 harg3 arg4 harg4 arg5 harg5 arg6 harg6 arg7 harg7 hc0 hc1 x0 x1
      = k0_pay10 x0 x1 (k0_pay5 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S33x1) zero2, View.readCov_unit_zero (S := S33x1) _ zero2]
  simp only [View.readAt_eq_ld, harg2.read_unread, harg3.read_unread,
    View.ld_unit_zero (S := S1x33x24576) zero3, View.ld_unit_zero (S := S1x1x24576) zero3]

theorem first_squares :
    sout0_A_1 c i arg2 harg2 arg3 harg3 arg4 harg4 arg5 harg5 arg6 harg6 arg7 harg7 hc0 hc1 x0 x1
      = k0_pay11 x0 (k0_pay6 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S33x1) zero2, View.readCov_unit_zero (S := S33x1) _ zero2]
  simp only [View.readAt_eq_ld, harg2.read_unread, View.ld_unit_zero (S := S1x33x24576) zero3]

theorem first_counts :
    sout0_A_2 c i arg2 harg2 arg3 harg3 arg4 harg4 arg5 harg5 arg6 harg6 arg7 harg7 hc0 hc1 x0 x1
      = k0_pay1 (k0_pay12 x1 (k0_pay7 (F := F))) := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S33x1) zero2, View.readCov_unit_zero (S := S33x1) _ zero2]
  simp only [View.readAt_eq_ld, harg3.read_unread, View.ld_unit_zero (S := S1x1x24576) zero3]

end First

end Cert.KernelIdeal.Pieces

end
-- ==== Proof.Spec.lean ====
/-
  The summands of the Dice loss in one vocabulary, and how a sum over a long axis splits into tiles.

  For a voxel with score `x` (an extended real) and label word `l`, and a class number `c`, write `ind l c` for
  the indicator of "the label is c": 1 or 0. Each class accumulates three quantities over all voxels of all
  batches: the masked score `x · ind l c`, the square `x · x`, and the count `ind l c`.

  The kernel spells the masked score as a selection (`x` where the class number equals the label, else zero) and
  the count as the one-bit comparison widened to a word and converted as a signed integer; the reference spells
  the masked score as the product with the comparison converted as an unsigned integer, and the count as that
  conversion itself. On the extended reals `x · 1 = x` and `x · 0 = 0` hold for every `x`, infinite ones
  included, so all of these are the same numbers; no finiteness is used.
-/
import Idealize.ShloMosaic.PureOps.Ideal
import Idealize.ShloMosaic.PureOps.Ideal.Laws
import Idealize.ShloMosaic.Lib.ValueIdx

noncomputable section

open scoped BigOperators

namespace Cert.Dice

open Idealize.ShloMosaic

/-- The indicator of "label word `l` is class `c`", as an extended real. -/
def ind (l : BitVec 32) (c : ℕ) : EReal := if l = BitVec.ofNat 32 c then 1 else 0

/-- Comparing the class number with the label, either way round, is one bit: set exactly when they are equal. -/
theorem cmp_class_label (l : BitVec 32) (c : ℕ) :
    IntOp.cmpi .eq (BitVec.ofNat 32 c) l = if l = BitVec.ofNat 32 c then 1#1 else 0#1 := by
  by_cases h : l = BitVec.ofNat 32 c
  · subst h; simp [IntOp.cmpi]
  · rw [if_neg h]
    have h' : BitVec.ofNat 32 c ≠ l := fun e => h e.symm
    show BitVec.ofBool (BitVec.ofNat 32 c == l) = 0#1
    rw [beq_eq_false_iff_ne.mpr h']; rfl

theorem cmp_label_class (l : BitVec 32) (c : ℕ) :
    IntOp.cmpi .eq l (BitVec.ofNat 32 c) = if l = BitVec.ofNat 32 c then 1#1 else 0#1 := by
  by_cases h : l = BitVec.ofNat 32 c
  · subst h; simp [IntOp.cmpi]
  · rw [if_neg h]
    show BitVec.ofBool (l == BitVec.ofNat 32 c) = 0#1
    rw [beq_eq_false_iff_ne.mpr h]; rfl

/-- The kernel's selection of the score where the class matches, zero elsewhere, is the score times the indicator. -/
theorem select_eq_mul_ind (l : BitVec 32) (c : ℕ) (x : EReal) :
    Scalar.select (IntOp.cmpi .eq (BitVec.ofNat 32 c) l) x (Ideal.ofBits .f32 0x00000000#32) = x * ind l c := by
  rw [cmp_class_label]
  unfold ind
  by_cases h : l = BitVec.ofNat 32 c
  · rw [if_pos h, if_pos h, ValueIdx.select_one, mul_one]
  · rw [if_neg h, if_neg h, ValueIdx.select_zero, Ideal.ofBits_zero_f32, mul_zero]

/-- The kernel's count summand: the comparison bit widened to 32 bits and converted as a signed integer. -/
theorem signed_bit_eq_ind (l : BitVec 32) (c : ℕ) :
    FloatOps.sitofp (F := Ideal) .f32 ((IntOp.cmpi .eq (BitVec.ofNat 32 c) l).setWidth 32) = ind l c := by
  rw [cmp_class_label]
  unfold ind
  by_cases h : l = BitVec.ofNat 32 c
  · rw [if_pos h, if_pos h]
    show (((1#1 : BitVec 1).setWidth 32).toInt : ℝ) = (1 : EReal)
    norm_num [show ((1#1 : BitVec 1).setWidth 32).toInt = 1 by decide]
  · rw [if_neg h, if_neg h]
    show (((0#1 : BitVec 1).setWidth 32).toInt : ℝ) = (0 : EReal)
    norm_num [show ((0#1 : BitVec 1).setWidth 32).toInt = 0 by decide]

/-- The reference's count summand: the comparison bit converted as an unsigned integer. -/
theorem unsigned_bit_eq_ind (l : BitVec 32) (c : ℕ) :
    FloatOps.uitofp (F := Ideal) .f32 (IntOp.cmpi .eq l (BitVec.ofNat 32 c)) = ind l c := by
  rw [cmp_label_class]
  unfold ind
  by_cases h : l = BitVec.ofNat 32 c
  · rw [if_pos h, if_pos h]
    show (((1#1 : BitVec 1).toNat : ℝ) : EReal) = 1
    norm_num
  · rw [if_neg h, if_neg h]
    show (((0#1 : BitVec 1).toNat : ℝ) : EReal) = 0
    norm_num

/-- A sum over an axis of `a · b` positions is the sum over `a` tiles of the sums over the `b` positions of a
    tile, position `k` of tile `j` being `j · b + k`. -/
theorem sum_tiles {M : Type*} [AddCommMonoid M] (a b N : ℕ) (hN : a * b = N) (g : Fin N → M) :
    ∑ n : Fin N, g n
      = ∑ j : Fin a, ∑ k : Fin b, g ⟨j.val * b + k.val, by
          have hj := j.isLt; have hk := k.isLt
          calc j.val * b + k.val < j.val * b + b := by omega
            _ = (j.val + 1) * b := by ring
            _ ≤ a * b := Nat.mul_le_mul_right b hj
            _ = N := hN⟩ := by
  subst hN
  rw [← Equiv.sum_comp finProdFinEquiv g, Fintype.sum_prod_type]
  refine Finset.sum_congr rfl fun j _ => Finset.sum_congr rfl fun k _ => congrArg g (Fin.ext ?_)
  simp [finProdFinEquiv, Nat.mul_comm, Nat.add_comm]

/-- A sum over the first `n` naturals of a function that is given on `Fin n` only. -/
theorem sum_range_dite {M : Type*} [AddCommMonoid M] (n : ℕ) (f : Fin n → M) :
    ∑ j ∈ Finset.range n, (if h : j < n then f ⟨j, h⟩ else 0) = ∑ j : Fin n, f j := by
  rw [Finset.sum_range]
  exact Finset.sum_congr rfl fun j _ => by rw [dif_pos j.isLt]

/-! ## The running sum over the tiles of one batch

Grid points are numbered batch by batch, 36 tiles to a batch, so point `n` is tile `n % 36` of batch `n / 36` and
the batch's first tile is point `n - n % 36`. For a per-point addend `T`, `runningSum T n` is the sum of the
addends of this batch's tiles up to and including point `n`. -/

def runningSum {M : Type*} [AddCommMonoid M] (T : ℕ → M) (n : ℕ) : M :=
  ∑ j ∈ Finset.range (n % 36 + 1), T (n - n % 36 + j)

/-- At a batch's first tile the running sum is that tile's addend. -/
theorem runningSum_first {M : Type*} [AddCommMonoid M] (T : ℕ → M) (n : ℕ) (h0 : n % 36 = 0) :
    runningSum T n = T n := by
  unfold runningSum
  rw [h0, Finset.sum_range_one]
  rfl

/-- At any other tile it is the previous point's running sum plus this tile's addend. -/
theorem runningSum_next {M : Type*} [AddCommMonoid M] (T : ℕ → M) (n : ℕ) (h0 : ¬(n + 1) % 36 = 0) :
    runningSum T (n + 1) = runningSum T n + T (n + 1) := by
  unfold runningSum
  have e1 : (n + 1) % 36 = n % 36 + 1 := by omega
  have e2 : n + 1 - (n % 36 + 1) = n - n % 36 := by omega
  rw [e1, e2, Finset.sum_range_succ]
  congr 2
  omega

/-- At a batch's last tile (point `36 b + 35`) it is the sum over all 36 tiles of batch `b`. -/
theorem runningSum_last {M : Type*} [AddCommMonoid M] (T : ℕ → M) (b : ℕ) :
    runningSum T (36 * b + 35) = ∑ j ∈ Finset.range 36, T (36 * b + j) := by
  unfold runningSum
  have e1 : (36 * b + 35) % 36 = 35 := by omega
  rw [e1]
  refine Finset.sum_congr rfl fun j _ => congrArg T ?_
  omega

end Cert.Dice

end
-- ==== Proof.Payloads.lean ====
/-
  One tile's contribution to each running sum, read entry by entry on the extended reals.

  A tile is a block of scores `x0` of shape [1, 33, 24576] (class by position) and a block of labels `x1` of
  shape [1, 1, 24576]. For class `c` the tile contributes

    masked  x0 x1 c = ∑ₖ x0[0,c,k] · ind (x1[0,0,k]) c      (scores of the voxels labelled c)
    squares x0    c = ∑ₖ x0[0,c,k] · x0[0,c,k]
    counts     x1 c = ∑ₖ ind (x1[0,0,k]) c                  (how many voxels are labelled c)

  and the body's three accumulator updates are "previous entry plus this", entry by entry: the lane reduction is
  a finite sum on the extended reals, the reshapes between [33], [33,1] and [1,33,24576] / [33,24576] only rename
  indices, the class numbers come from an iota along the class axis and the labels are broadcast along it. The
  rows of the output block are the accumulators transposed.
-/
import proofs.«165124_j10222022164824_2_alg».proof.Proof.Gen.KernelIdeal.Skeleton
import proofs.«165124_j10222022164824_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.ValueIdx

namespace Cert.KernelIdeal.Tiles

open Cert.KernelIdeal Cert.KernelIdeal.Gen Cert.Dice

/-- The tile's masked scores of class `cls`. -/
def masked (x0 : Vec Ideal S1x33x24576 .f32) (x1 : Vec Ideal S1x1x24576 .i32) (cls : Fin 33) : EReal :=
  ∑ k : Fin 24576, x0 (ix3 (0 : Fin 1) cls k) * ind (x1 (ix3 (0 : Fin 1) (0 : Fin 1) k)) cls.val

/-- The tile's squared scores of class `cls`. -/
def squares (x0 : Vec Ideal S1x33x24576 .f32) (cls : Fin 33) : EReal :=
  ∑ k : Fin 24576, x0 (ix3 (0 : Fin 1) cls k) * x0 (ix3 (0 : Fin 1) cls k)

/-- How many of the tile's voxels are labelled `cls`. -/
def counts (x1 : Vec Ideal S1x1x24576 .i32) (cls : Fin 33) : EReal :=
  ∑ k : Fin 24576, ind (x1 (ix3 (0 : Fin 1) (0 : Fin 1) k)) cls.val

/-! ## The block's entries under the body's reshapes -/

/-- The scores viewed [33, 24576]: entry (c, k) is entry (0, c, k) of the block. -/
theorem scores_apply (x0 : Vec Ideal S1x33x24576 .f32) (cls : Fin 33) (k : Fin 24576) :
    k0_pay8 x0 (ix2 cls k) = x0 (ix3 (0 : Fin 1) cls k) := by
  unfold k0_pay8
  exact shapeCast_apply x0 _ (ix2 cls k) (ix3 (0 : Fin 1) cls k) (by
    rw [Shape.rowMajor_val_three, Shape.rowMajor_val_two]
    show (0 * 33 + cls.val) * 24576 + k.val = cls.val * 24576 + k.val
    omega)

/-- The class mask at (c, k): the class number `c` (an iota along the class axis) compared with the label at
    position `k` (the label row broadcast along the class axis). -/
theorem mask_apply (x1 : Vec Ideal S1x1x24576 .i32) (cls : Fin 33) (k : Fin 24576) :
    k0_pay9 (F := Ideal) x1 (ix2 cls k) = IntOp.cmpi .eq (BitVec.ofNat 32 cls.val) (x1 (ix3 (0 : Fin 1) (0 : Fin 1) k)) := by
  unfold k0_pay9
  show IntOp.cmpi .eq (iota .tc S33x24576 32 [0] iota_S33x24576_d0_w32 (ix2 cls k))
      (broadcastTo S33x24576 (shapeCast S1x24576 x1 shapeCasts_S1x1x24576_S1x24576) broadcasts_S1x24576_S33x24576 (ix2 cls k)) = _
  have e1 : iota .tc S33x24576 32 [0] iota_S33x24576_d0_w32 (ix2 cls k) = BitVec.ofNat 32 cls.val :=
    iota_single_apply .tc S33x24576 32 0 iota_S33x24576_d0_w32 (ix2 cls k)
  have e2 : broadcastTo S33x24576 (shapeCast S1x24576 x1 shapeCasts_S1x1x24576_S1x24576) broadcasts_S1x24576_S33x24576 (ix2 cls k)
      = shapeCast S1x24576 x1 shapeCasts_S1x1x24576_S1x24576 (ix2 (0 : Fin 1) k) :=
    broadcastTo_apply _ broadcasts_S1x24576_S33x24576 (ix2 cls k) (ix2 (0 : Fin 1) k) (fun a => match a with
      | ⟨0, _⟩ => rfl
      | ⟨1, _⟩ => rfl)
  have e3 : shapeCast S1x24576 x1 shapeCasts_S1x1x24576_S1x24576 (ix2 (0 : Fin 1) k) = x1 (ix3 (0 : Fin 1) (0 : Fin 1) k) :=
    shapeCast_apply x1 _ (ix2 (0 : Fin 1) k) (ix3 (0 : Fin 1) (0 : Fin 1) k) (by
      rw [Shape.rowMajor_val_three, Shape.rowMajor_val_two]
      show (0 * 1 + 0) * 24576 + k.val = 0 * 24576 + k.val
      omega)
  rw [e1, e2, e3]

/-- A lane sum of a [33, 24576] array, viewed as a column [33, 1]: entry (c, 0) is the sum of row `c`. -/
theorem row_sum_apply (src : FVec Ideal S33x24576 .f32) (cls : Fin 33) :
    shapeCast S33x1 (multiReduction .add [1] S33 src 0x00000000#32 reduces_S33x24576_S33 (.inl rfl) rfl) shapeCasts_S33_S33x1
        (ix2 cls (0 : Fin 1))
      = ∑ k : Fin 24576, src (ix2 cls k) := by
  refine (shapeCast_apply _ shapeCasts_S33_S33x1 (ix2 cls (0 : Fin 1)) (ix1 cls) (by
    rw [Shape.rowMajor_val_one, Shape.rowMajor_val_two]
    show cls.val = cls.val * 1 + 0
    omega)).trans ?_
  refine (Ideal.multiReduction_add_single src _ reduces_S33x24576_S33 (.inl rfl) rfl (ix1 cls)).trans ?_
  refine Finset.sum_congr rfl fun k _ => congrArg src ?_
  funext a
  match a with
  | ⟨0, _⟩ => rfl
  | ⟨1, _⟩ => rfl

/-- The column of zeros the first tile of a batch stores. -/
theorem zeros_apply (y : S33x1.Idx) : (broadcast S33x1 (Scalar.ofBits (F := Ideal) .f32 0x00000000#32) : FVec Ideal S33x1 .f32) y = 0 :=
  Ideal.ofBits_zero_f32

/-! ## The three accumulator updates -/

/-- Every index of a [33, 1] column is (p, 0) for a class `p`. -/
theorem column_idx (y : S33x1.Idx) : ∃ p : Fin 33, y = ix2 p (0 : Fin 1) := by
  obtain ⟨p, q, rfl⟩ : ∃ (p : Fin 33) (q : Fin 1), y = ix2 p q := ⟨y 0, y 1, eq_ix2 y⟩
  obtain rfl : q = 0 := Subsingleton.elim _ _
  exact ⟨p, rfl⟩

theorem masked_update_apply (x0 : Vec Ideal S1x33x24576 .f32) (x1 : Vec Ideal S1x1x24576 .i32) (acc : Vec Ideal S33x1 .f32)
    (p : Fin 33) : k0_pay10 x0 x1 acc (ix2 p (0 : Fin 1)) = acc (ix2 p (0 : Fin 1)) + masked x0 x1 p := by
  unfold k0_pay10
  rw [shapeCast_self]
  show acc (ix2 p (0 : Fin 1)) + _ = _
  refine congrArg (acc (ix2 p (0 : Fin 1)) + ·) ?_
  refine (row_sum_apply _ p).trans ?_
  unfold masked
  refine Finset.sum_congr rfl fun k _ => ?_
  show Scalar.select (k0_pay9 (F := Ideal) x1 (ix2 p k)) (k0_pay8 x0 (ix2 p k)) (Scalar.ofBits (F := Ideal) .f32 0x00000000#32) = _
  rw [mask_apply, scores_apply]
  exact select_eq_mul_ind _ _ _

theorem squares_update_apply (x0 : Vec Ideal S1x33x24576 .f32) (acc : Vec Ideal S33x1 .f32) (p : Fin 33) :
    k0_pay11 x0 acc (ix2 p (0 : Fin 1)) = acc (ix2 p (0 : Fin 1)) + squares x0 p := by
  unfold k0_pay11
  rw [shapeCast_self]
  show acc (ix2 p (0 : Fin 1)) + _ = _
  refine congrArg (acc (ix2 p (0 : Fin 1)) + ·) ?_
  refine (row_sum_apply _ p).trans ?_
  unfold squares
  refine Finset.sum_congr rfl fun k _ => ?_
  show k0_pay8 x0 (ix2 p k) * k0_pay8 x0 (ix2 p k) = _
  rw [scores_apply]

theorem counts_update_apply (x1 : Vec Ideal S1x1x24576 .i32) (acc : Vec Ideal S33x1 .f32) (p : Fin 33) :
    k0_pay1 (k0_pay12 (F := Ideal) x1 acc) (ix2 p (0 : Fin 1)) = acc (ix2 p (0 : Fin 1)) + counts x1 p := by
  unfold k0_pay1 k0_pay12
  rw [shapeCast_self]
  show acc (ix2 p (0 : Fin 1)) + _ = _
  refine congrArg (acc (ix2 p (0 : Fin 1)) + ·) ?_
  refine (row_sum_apply _ p).trans ?_
  unfold counts
  refine Finset.sum_congr rfl fun k _ => ?_
  show FloatOps.sitofp (F := Ideal) .f32 ((k0_pay9 (F := Ideal) x1 (ix2 p k)).setWidth 32) = _
  rw [mask_apply]
  exact signed_bit_eq_ind _ _

theorem masked_update (x0 : Vec Ideal S1x33x24576 .f32) (x1 : Vec Ideal S1x1x24576 .i32) (acc : Vec Ideal S33x1 .f32) :
    k0_pay10 x0 x1 acc = fun y => acc y + masked x0 x1 (y 0) := by
  funext y
  obtain ⟨p, rfl⟩ := column_idx y
  exact masked_update_apply x0 x1 acc p

theorem squares_update (x0 : Vec Ideal S1x33x24576 .f32) (acc : Vec Ideal S33x1 .f32) :
    k0_pay11 x0 acc = fun y => acc y + squares x0 (y 0) := by
  funext y
  obtain ⟨p, rfl⟩ := column_idx y
  exact squares_update_apply x0 acc p

theorem counts_update (x1 : Vec Ideal S1x1x24576 .i32) (acc : Vec Ideal S33x1 .f32) :
    k0_pay1 (k0_pay12 (F := Ideal) x1 acc) = fun y => acc y + counts x1 (y 0) := by
  funext y
  obtain ⟨p, rfl⟩ := column_idx y
  exact counts_update_apply x1 acc p

/-- The three columns of zeros. -/
theorem zeros_masked : (k0_pay5 (F := Ideal)) = fun _ => (0 : EReal) := by
  funext y; unfold k0_pay5; rw [shapeCast_self]; exact zeros_apply y
theorem zeros_squares : (k0_pay6 (F := Ideal)) = fun _ => (0 : EReal) := by
  funext y; unfold k0_pay6; rw [shapeCast_self]; exact zeros_apply y
theorem zeros_counts : (k0_pay7 (F := Ideal)) = fun _ => (0 : EReal) := by
  funext y; unfold k0_pay7; rw [shapeCast_self]; exact zeros_apply y

/-! ## The output rows: an accumulator column, transposed -/

/-- A [33, 1] column transposed and viewed [1, 1, 33]: entry (0, 0, c) is entry (c, 0) of the column. -/
theorem row_of_column (v : Vec Ideal S33x1 .f32) (y : S1x1x33.Idx) :
    shapeCast S1x1x33 (transpose S1x33 [1, 0] v transposes_S33x1_p1_0_S1x33) shapeCasts_S1x33_S1x1x33 y = v (ix2 (y 2) (0 : Fin 1)) := by
  refine (shapeCast_apply _ shapeCasts_S1x33_S1x1x33 y (ix2 (0 : Fin 1) (y 2)) (by
    rw [Shape.rowMajor_val_two, Shape.rowMajor_val_three]
    have h0 : (y 0).val = 0 := by have := (y 0).isLt; simp at this; omega
    have h1 : (y 1).val = 0 := by have := (y 1).isLt; simp at this; omega
    show 0 * 33 + (y 2).val = ((y 0).val * 1 + (y 1).val) * 33 + (y 2).val
    rw [h0, h1])).trans ?_
  exact transpose_apply [1, 0] v transposes_S33x1_p1_0_S1x33 (ix2 (0 : Fin 1) (y 2)) (ix2 (y 2) (0 : Fin 1)) (fun b => match b with
    | ⟨0, _⟩ => rfl
    | ⟨1, _⟩ => rfl)

theorem row_masked (v : Vec Ideal S33x1 .f32) (y : S1x1x33.Idx) : k0_pay2 v y = v (ix2 (y 2) (0 : Fin 1)) := by
  unfold k0_pay2; exact row_of_column v y
theorem row_squares (v : Vec Ideal S33x1 .f32) (y : S1x1x33.Idx) : k0_pay3 v y = v (ix2 (y 2) (0 : Fin 1)) := by
  unfold k0_pay3; exact row_of_column v y
theorem row_counts (v : Vec Ideal S33x1 .f32) (y : S1x1x33.Idx) : k0_pay4 v y = v (ix2 (y 2) (0 : Fin 1)) := by
  unfold k0_pay4; exact row_of_column v y

/- Each of the three tile sums ranges over 24576 positions; what follows needs of them only the three update
   lemmas above. -/
attribute [irreducible] masked squares counts

end Cert.KernelIdeal.Tiles

end
-- ==== Proof.Chain.lean ====
/-
  What the three accumulators hold after every grid point, and what the output block holds at a batch's last tile.

  Point `t` of the grid works on tile `t % 36` of batch `t / 36`: its score block and label block are the blocks
  of the (reshaped) arguments the two input windows fetch there. Writing `tMasked t c`, `tSquares t c`,
  `tCounts t c` for that tile's three contributions to class `c`, the accumulators after point `t` hold, at
  class `c`, the running sums of those contributions over the tiles of the current batch up to `t` — by
  induction on the point: a batch's first tile stores zeros and adds its contribution (so the sum restarts), every
  other tile adds its contribution to what the previous point left. At a batch's last tile the body then copies
  the three accumulators, transposed, into rows 0, 1, 2 of the output block.
-/
import proofs.«165124_j10222022164824_2_alg».proof.Proof.Pieces
import proofs.«165124_j10222022164824_2_alg».proof.Proof.Payloads
import Idealize.ShloMosaic.Lib.Pipeline.Value

set_option maxRecDepth 16384

noncomputable section

open scoped BigOperators
open Idealize.ShloMosaic Idealize.ShloMosaic.TcCoe Idealize.SL.Sem Idealize.ShloMosaic.ValueIdx

namespace Cert.KernelIdeal.Chain

open Cert.KernelIdeal Cert.KernelIdeal.Gen Cert.KernelIdeal.Tiles Cert.KernelIdeal.Pieces Cert.Dice

variable (m : (ℓ : Loc nD τ sig) → Buf (Elt Ideal) ℓ) (c : Dev nD)

/-- The score block and the label block the windows fetch at point `t`. -/
abbrev scoresAt (t : Fin cfg0.N) : Vec Ideal S1x33x24576 .f32 := iblk m c 0 t
abbrev labelsAt (t : Fin cfg0.N) : Vec Ideal S1x1x24576 .i32 := iblk m c 1 t

/-- Point `t`'s contributions to class `cls` (zero past the grid, where there is no point). -/
def tMasked (t : ℕ) (cls : Fin 33) : EReal :=
  if h : t < cfg0.N then masked (scoresAt m c ⟨t, h⟩) (labelsAt m c ⟨t, h⟩) cls else 0
def tSquares (t : ℕ) (cls : Fin 33) : EReal :=
  if h : t < cfg0.N then squares (scoresAt m c ⟨t, h⟩) cls else 0
def tCounts (t : ℕ) (cls : Fin 33) : EReal :=
  if h : t < cfg0.N then counts (labelsAt m c ⟨t, h⟩) cls else 0

/-! ## One point -/

/-- The three accumulators as the body finds them at a point: what the previous point left. -/
abbrev Acc := Vec Ideal S33x1 .f32 × Vec Ideal S33x1 .f32 × Vec Ideal S33x1 .f32

/-- A batch's first tile: the accumulators hold that tile's contributions. -/
theorem step_first (t : Fin cfg0.N) (h0 : t.val % 36 = 0) :
    (outsAt0 m c t.val t.isLt).2
      = (fun y => masked (scoresAt m c t) (labelsAt m c t) (y 0), fun y => squares (scoresAt m c t) (y 0),
          fun y => counts (labelsAt m c t) (y 0)) := by
  have h1 : ¬t.val % 36 = 35 := by omega
  rw [outsAt0_A m c t h0 h1]
  dsimp only
  refine congrArg₂ Prod.mk ?_ (congrArg₂ Prod.mk ?_ ?_)
  · refine (first_masked (F := Ideal) c (grid0.coords t) (ms0_0 t) (hs0_0 t) (ms0_1 t) (hs0_1 t) (ms0_2 t) (hs0_2 t)
        scM0_0 (Memref.isWhole_whole _) scM0_1 (Memref.isWhole_whole _) scM0_2 (Memref.isWhole_whole _) (iblk m c 0 t) (iblk m c 1 t)
        ((hcond0_0 t).mpr h0) (fun h => h1 ((hcond0_1 t).mp h))).trans ?_
    rw [masked_update, zeros_masked]
    funext y; exact zero_add _
  · refine (first_squares (F := Ideal) c (grid0.coords t) (ms0_0 t) (hs0_0 t) (ms0_1 t) (hs0_1 t) (ms0_2 t) (hs0_2 t)
        scM0_0 (Memref.isWhole_whole _) scM0_1 (Memref.isWhole_whole _) scM0_2 (Memref.isWhole_whole _) (iblk m c 0 t) (iblk m c 1 t)
        ((hcond0_0 t).mpr h0) (fun h => h1 ((hcond0_1 t).mp h))).trans ?_
    rw [squares_update, zeros_squares]
    funext y; exact zero_add _
  · refine (first_counts (F := Ideal) c (grid0.coords t) (ms0_0 t) (hs0_0 t) (ms0_1 t) (hs0_1 t) (ms0_2 t) (hs0_2 t)
        scM0_0 (Memref.isWhole_whole _) scM0_1 (Memref.isWhole_whole _) scM0_2 (Memref.isWhole_whole _) (iblk m c 0 t) (iblk m c 1 t)
        ((hcond0_0 t).mpr h0) (fun h => h1 ((hcond0_1 t).mp h))).trans ?_
    rw [counts_update, zeros_counts]
    funext y; exact zero_add _

/-- Any other tile: each accumulator holds what the previous point left plus this tile's contribution. -/
theorem step_next (t : Fin cfg0.N) (h0 : ¬t.val % 36 = 0) (prev : Acc)
    (hprev : (outsAt0 m c (t.val - 1) (Nat.lt_of_le_of_lt (Nat.sub_le _ _) t.isLt)).2 = prev) :
    (outsAt0 m c t.val t.isLt).2
      = (fun y => prev.1 y + masked (scoresAt m c t) (labelsAt m c t) (y 0),
          fun y => prev.2.1 y + squares (scoresAt m c t) (y 0),
          fun y => prev.2.2 y + counts (labelsAt m c t) (y 0)) := by
  subst hprev
  by_cases h1 : t.val % 36 = 35
  · rw [outsAt0_C m c t h0 h1]
    dsimp only
    refine congrArg₂ Prod.mk ?_ (congrArg₂ Prod.mk ?_ ?_)
    · exact (last_masked c (grid0.coords t) (ms0_0 t) (hs0_0 t) (ms0_1 t) (hs0_1 t) (ms0_2 t) (hs0_2 t)
        scM0_0 (Memref.isWhole_whole _) scM0_1 (Memref.isWhole_whole _) scM0_2 (Memref.isWhole_whole _) (iblk m c 0 t) (iblk m c 1 t) _ _ _
        (fun hh => h0 ((hcond0_0 t).mp hh)) ((hcond0_1 t).mpr h1)).trans (masked_update _ _ _)
    · exact (last_squares c (grid0.coords t) (ms0_0 t) (hs0_0 t) (ms0_1 t) (hs0_1 t) (ms0_2 t) (hs0_2 t)
        scM0_0 (Memref.isWhole_whole _) scM0_1 (Memref.isWhole_whole _) scM0_2 (Memref.isWhole_whole _) (iblk m c 0 t) (iblk m c 1 t) _ _ _
        (fun hh => h0 ((hcond0_0 t).mp hh)) ((hcond0_1 t).mpr h1)).trans (squares_update _ _)
    · exact (last_counts c (grid0.coords t) (ms0_0 t) (hs0_0 t) (ms0_1 t) (hs0_1 t) (ms0_2 t) (hs0_2 t)
        scM0_0 (Memref.isWhole_whole _) scM0_1 (Memref.isWhole_whole _) scM0_2 (Memref.isWhole_whole _) (iblk m c 0 t) (iblk m c 1 t) _ _ _
        (fun hh => h0 ((hcond0_0 t).mp hh)) ((hcond0_1 t).mpr h1)).trans (counts_update _ _)
  · rw [outsAt0_B m c t h0 h1]
    dsimp only
    refine congrArg₂ Prod.mk ?_ (congrArg₂ Prod.mk ?_ ?_)
    · exact (middle_masked c (grid0.coords t) (ms0_0 t) (hs0_0 t) (ms0_1 t) (hs0_1 t) (ms0_2 t) (hs0_2 t)
        scM0_0 (Memref.isWhole_whole _) scM0_1 (Memref.isWhole_whole _) scM0_2 (Memref.isWhole_whole _) (iblk m c 0 t) (iblk m c 1 t) _ _ _
        (fun hh => h0 ((hcond0_0 t).mp hh)) (fun hh => h1 ((hcond0_1 t).mp hh))).trans (masked_update _ _ _)
    · exact (middle_squares c (grid0.coords t) (ms0_0 t) (hs0_0 t) (ms0_1 t) (hs0_1 t) (ms0_2 t) (hs0_2 t)
        scM0_0 (Memref.isWhole_whole _) scM0_1 (Memref.isWhole_whole _) scM0_2 (Memref.isWhole_whole _) (iblk m c 0 t) (iblk m c 1 t) _ _ _
        (fun hh => h0 ((hcond0_0 t).mp hh)) (fun hh => h1 ((hcond0_1 t).mp hh))).trans (squares_update _ _)
    · exact (middle_counts c (grid0.coords t) (ms0_0 t) (hs0_0 t) (ms0_1 t) (hs0_1 t) (ms0_2 t) (hs0_2 t)
        scM0_0 (Memref.isWhole_whole _) scM0_1 (Memref.isWhole_whole _) scM0_2 (Memref.isWhole_whole _) (iblk m c 0 t) (iblk m c 1 t) _ _ _
        (fun hh => h0 ((hcond0_0 t).mp hh)) (fun hh => h1 ((hcond0_1 t).mp hh))).trans (counts_update _ _)

/-! ## Every point: the running sums -/

/-- The closed form: the three running sums, class by class. -/
def sumsAt (n : ℕ) : Acc :=
  (fun y => runningSum (fun t => tMasked m c t (y 0)) n, fun y => runningSum (fun t => tSquares m c t (y 0)) n,
    fun y => runningSum (fun t => tCounts m c t (y 0)) n)

/-- At a batch's first tile the running sums are that tile's contributions. -/
theorem sumsAt_first (n : ℕ) (h : n < cfg0.N) (h0 : n % 36 = 0) :
    (fun y => masked (scoresAt m c ⟨n, h⟩) (labelsAt m c ⟨n, h⟩) (y 0), fun y => squares (scoresAt m c ⟨n, h⟩) (y 0),
        fun y => counts (labelsAt m c ⟨n, h⟩) (y 0)) = sumsAt m c n := by
  unfold sumsAt
  refine congrArg₂ Prod.mk (funext fun y => ?_) (congrArg₂ Prod.mk (funext fun y => ?_) (funext fun y => ?_))
  · rw [runningSum_first _ n h0]; simp only [tMasked, dif_pos h]
  · rw [runningSum_first _ n h0]; simp only [tSquares, dif_pos h]
  · rw [runningSum_first _ n h0]; simp only [tCounts, dif_pos h]

/-- At any other tile they are the previous point's plus this tile's contributions. -/
theorem sumsAt_next (n : ℕ) (h : n + 1 < cfg0.N) (h0 : ¬(n + 1) % 36 = 0) :
    (fun y => (sumsAt m c n).1 y + masked (scoresAt m c ⟨n + 1, h⟩) (labelsAt m c ⟨n + 1, h⟩) (y 0),
        fun y => (sumsAt m c n).2.1 y + squares (scoresAt m c ⟨n + 1, h⟩) (y 0),
        fun y => (sumsAt m c n).2.2 y + counts (labelsAt m c ⟨n + 1, h⟩) (y 0)) = sumsAt m c (n + 1) := by
  unfold sumsAt
  dsimp only
  refine congrArg₂ Prod.mk (funext fun y => ?_) (congrArg₂ Prod.mk (funext fun y => ?_) (funext fun y => ?_))
  · rw [runningSum_next _ n h0]; simp only [tMasked, dif_pos h]
  · rw [runningSum_next _ n h0]; simp only [tSquares, dif_pos h]
  · rw [runningSum_next _ n h0]; simp only [tCounts, dif_pos h]

/-- After point `n` the accumulators hold, class by class, the running sums over the current batch's tiles. -/
theorem accumulators : ∀ (n : ℕ) (h : n < cfg0.N), (outsAt0 m c n h).2 = sumsAt m c n
  | 0, h => (step_first m c ⟨0, h⟩ rfl).trans (sumsAt_first m c 0 h rfl)
  | n + 1, h => by
    by_cases h0 : (n + 1) % 36 = 0
    · exact (step_first m c ⟨n + 1, h⟩ h0).trans (sumsAt_first m c (n + 1) h h0)
    · exact (step_next m c ⟨n + 1, h⟩ h0 (sumsAt m c n) (accumulators n (Nat.lt_of_succ_lt h))).trans (sumsAt_next m c n h h0)

end Cert.KernelIdeal.Chain

end
-- ==== Proof.Output.lean ====
/-
  The kernel's result array: entry (b, r, c) is, for batch `b` and class `c`, the sum over the batch's 36 tiles of
  the masked scores (r = 0), the squared scores (r = 1) or the label counts (r = 2).

  The output block [1, 3, 33] is stored only at a batch's last tile (point 36·b + 35), row `r` being accumulator
  `r` after that tile's update, and that is the only point that writes the block back; its block index is
  (b, 0, 0). So the two write-backs cover the [2, 3, 33] array, block `b` holding batch `b`'s completed sums.
-/
import proofs.«165124_j10222022164824_2_alg».proof.Proof.Chain

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.KernelIdeal.Tiles Cert.KernelIdeal.Pieces Cert.KernelIdeal.Chain Cert.Dice

/-! ## Three columns stored as the rows of a block -/

/-- Row `r` of three columns. -/
def pick (S0 S1 S2 : Vec Ideal S33x1 .f32) (r : ℕ) : Vec Ideal S33x1 .f32 :=
  if r = 0 then S0 else if r = 1 then S1 else S2

/-- The block whose rows 0, 1, 2 are three columns transposed, read at an index. -/
theorem rows_apply (S0 S1 S2 : Vec Ideal S33x1 .f32) (y : S1x3x33.Idx) :
    View.canon
        [ (⟨Rect.unit ![0, 2, 0] ![1, 1, 33] inb_S1x3x33_S1x1x33_0_2_0, k0_pay4 S2⟩ : View.Piece (Elt Ideal) S1x3x33 .f32),
          ⟨Rect.unit ![0, 1, 0] ![1, 1, 33] inb_S1x3x33_S1x1x33_0_1_0, k0_pay3 S1⟩,
          ⟨Rect.unit ![0, 0, 0] ![1, 1, 33] inb_S1x3x33_S1x1x33_0_0_0, k0_pay2 S0⟩ ] y
      = pick S0 S1 S2 (y 1).val (ix2 (⟨(y 2).val, (y 2).isLt⟩ : Fin 33) (0 : Fin 1)) := by
  have hy0 : (y 0).val < 1 := (y 0).isLt
  have hy1 : (y 1).val < 3 := (y 1).isLt
  have hy2 : (y 2).val < 33 := (y 2).isLt
  refine View.canon_apply_of_pieces
    (fun y : S1x3x33.Idx => pick S0 S1 S2 (y 1).val (ix2 (⟨(y 2).val, (y 2).isLt⟩ : Fin 33) (0 : Fin 1))) _ ?_ y ?_
  · intro p hp x
    simp only [List.mem_cons, List.mem_nil_iff, or_false] at hp
    rcases hp with rfl | rfl | rfl
    · refine (row_counts S2 x).trans ?_
      show S2 _ = pick S0 S1 S2 (2 + 1 * (x 1).val) _
      have hx1 : (x 1).val < 1 := (x 1).isLt
      unfold pick
      rw [if_neg (by omega), if_neg (by omega)]
      refine congrArg S2 (funext fun a => ?_)
      match a with
      | ⟨0, _⟩ => exact Fin.ext (show (x 2).val = 0 + 1 * (x 2).val by omega)
      | ⟨1, _⟩ => rfl
    · refine (row_squares S1 x).trans ?_
      show S1 _ = pick S0 S1 S2 (1 + 1 * (x 1).val) _
      have hx1 : (x 1).val < 1 := (x 1).isLt
      unfold pick
      rw [if_neg (by omega), if_pos (by omega)]
      refine congrArg S1 (funext fun a => ?_)
      match a with
      | ⟨0, _⟩ => exact Fin.ext (show (x 2).val = 0 + 1 * (x 2).val by omega)
      | ⟨1, _⟩ => rfl
    · refine (row_masked S0 x).trans ?_
      show S0 _ = pick S0 S1 S2 (0 + 1 * (x 1).val) _
      have hx1 : (x 1).val < 1 := (x 1).isLt
      unfold pick
      rw [if_pos (by omega)]
      refine congrArg S0 (funext fun a => ?_)
      match a with
      | ⟨0, _⟩ => exact Fin.ext (show (x 2).val = 0 + 1 * (x 2).val by omega)
      | ⟨1, _⟩ => rfl
  · rcases (by omega : (y 1).val = 2 ∨ (y 1).val = 1 ∨ (y 1).val = 0) with h | h | h
    · refine ⟨_, List.mem_cons_self, ?_⟩
      rw [Rect.mem_set_unit]
      intro a
      match a with
      | ⟨0, _⟩ => exact ⟨Nat.zero_le _, show (y 0).val < 0 + 1 by omega⟩
      | ⟨1, _⟩ => exact ⟨show 2 ≤ (y 1).val by omega, show (y 1).val < 2 + 1 by omega⟩
      | ⟨2, _⟩ => exact ⟨Nat.zero_le _, show (y 2).val < 0 + 33 by omega⟩
    · refine ⟨_, List.mem_cons_of_mem _ List.mem_cons_self, ?_⟩
      rw [Rect.mem_set_unit]
      intro a
      match a with
      | ⟨0, _⟩ => exact ⟨Nat.zero_le _, show (y 0).val < 0 + 1 by omega⟩
      | ⟨1, _⟩ => exact ⟨show 1 ≤ (y 1).val by omega, show (y 1).val < 1 + 1 by omega⟩
      | ⟨2, _⟩ => exact ⟨Nat.zero_le _, show (y 2).val < 0 + 33 by omega⟩
    · refine ⟨_, List.mem_cons_of_mem _ (List.mem_cons_of_mem _ List.mem_cons_self), ?_⟩
      rw [Rect.mem_set_unit]
      intro a
      match a with
      | ⟨0, _⟩ => exact ⟨Nat.zero_le _, show (y 0).val < 0 + 1 by omega⟩
      | ⟨1, _⟩ => exact ⟨Nat.zero_le _, show (y 1).val < 0 + 1 by omega⟩
      | ⟨2, _⟩ => exact ⟨Nat.zero_le _, show (y 2).val < 0 + 33 by omega⟩

/-! ## The output block at a batch's last tile -/

variable (m : (ℓ : Loc nD τ sig) → Buf (Elt Ideal) ℓ) (c : Dev nD)

/-- At a batch's last tile the output block's rows are the three running sums after that tile. -/
theorem block_last (t : Fin cfg0.N) (h1 : t.val % 36 = 35) (y : S1x3x33.Idx) :
    (outsAt0 m c t.val t.isLt).1 y
      = pick (sumsAt m c t.val).1 (sumsAt m c t.val).2.1 (sumsAt m c t.val).2.2 (y 1).val
          (ix2 (⟨(y 2).val, (y 2).isLt⟩ : Fin 33) (0 : Fin 1)) := by
  have h0 : ¬t.val % 36 = 0 := by omega
  have hs := accumulators m c t.val t.isLt
  rw [outsAt0_C m c t h0 h1] at hs ⊢
  dsimp only at hs ⊢
  have hc0 : ¬cond0_0 (grid0.coords t) := fun hh => h0 ((hcond0_0 t).mp hh)
  have hc1 : cond0_1 (grid0.coords t) := (hcond0_1 t).mpr h1
  rw [last_output c (grid0.coords t) (ms0_0 t) (hs0_0 t) (ms0_1 t) (hs0_1 t) (ms0_2 t) (hs0_2 t)
      scM0_0 (Memref.isWhole_whole _) scM0_1 (Memref.isWhole_whole _) scM0_2 (Memref.isWhole_whole _) (iblk m c 0 t) (iblk m c 1 t) _ _ _ hc0 hc1]
  rw [last_masked c (grid0.coords t) (ms0_0 t) (hs0_0 t) (ms0_1 t) (hs0_1 t) (ms0_2 t) (hs0_2 t)
      scM0_0 (Memref.isWhole_whole _) scM0_1 (Memref.isWhole_whole _) scM0_2 (Memref.isWhole_whole _) (iblk m c 0 t) (iblk m c 1 t) _ _ _ hc0 hc1,
    last_squares c (grid0.coords t) (ms0_0 t) (hs0_0 t) (ms0_1 t) (hs0_1 t) (ms0_2 t) (hs0_2 t)
      scM0_0 (Memref.isWhole_whole _) scM0_1 (Memref.isWhole_whole _) scM0_2 (Memref.isWhole_whole _) (iblk m c 0 t) (iblk m c 1 t) _ _ _ hc0 hc1,
    last_counts c (grid0.coords t) (ms0_0 t) (hs0_0 t) (ms0_1 t) (hs0_1 t) (ms0_2 t) (hs0_2 t)
      scM0_0 (Memref.isWhole_whole _) scM0_1 (Memref.isWhole_whole _) scM0_2 (Memref.isWhole_whole _) (iblk m c 0 t) (iblk m c 1 t) _ _ _ hc0 hc1] at hs
  rw [rows_apply, ← hs]

end Cert.KernelIdeal.Output

end
-- ==== Proof.Final.lean ====
/-
  The result array after the run.

  Entry (b, r, c) of the [2, 3, 33] array is running sum `r` of class `c` after batch `b`'s last tile, point
  36·b + 35. That point is the only one of the batch that writes the output block back, to block index (b, 0, 0);
  the two write-backs cover the array.
-/
import proofs.«165124_j10222022164824_2_alg».proof.Proof.Output

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Chain Cert.KernelIdeal.Output Cert.Dice

variable (m : (ℓ : Loc nD τ sig) → Buf (Elt Ideal) ℓ) (c : Dev nD)

/-- Running sum `r` of class `v` after point `n` (zero for a class number out of range). -/
def entry (n r v : ℕ) : EReal :=
  if h : v < 33 then pick (sumsAt m c n).1 (sumsAt m c n).2.1 (sumsAt m c n).2.2 r (ix2 (⟨v, h⟩ : Fin 33) (0 : Fin 1)) else 0

/-- The result array. -/
def result : Buf (Elt Ideal) ((c : Thread nD τ).loc main_v2) :=
  fun i : S2x3x33.Idx => entry m c (36 * (i 0).val + 35) (i 1).val (i 2).val

/-- The output block at a batch's last tile, in those words. -/
theorem block_entry (t : Fin cfg0.N) (h1 : t.val % 36 = 35) (y : S1x3x33.Idx) :
    (outsAt0 m c t.val t.isLt).1 y = entry m c t.val (y 1).val (y 2).val := by
  rw [block_last m c t h1 y]
  unfold entry
  have h33 : (y 2).val < 33 := (y 2).isLt
  rw [dif_pos h33]

/-- The output window's block index at point `t` is (t / 36, 0, 0), and its blocks are never cut. -/
theorem index_out : ∀ t : Fin cfg0.N, win0_2.index t 0 = t.val / 36 ∧ win0_2.index t 1 = 0 ∧ win0_2.index t 2 = 0 :=
  (by decide +kernel : ∀ t : Fin grid0.N, win0_2.index t 0 = t.val / 36 ∧ win0_2.index t 1 = 0 ∧ win0_2.index t 2 = 0)
theorem xsize_out : ∀ t : Fin cfg0.N, win0_2.xsize (grid0.coords t) 0 = 1 ∧ win0_2.xsize (grid0.coords t) 1 = 3
      ∧ win0_2.xsize (grid0.coords t) 2 = 33 :=
  (by decide +kernel : ∀ t : Fin grid0.N, win0_2.xsize (grid0.coords t) 0 = 1 ∧ win0_2.xsize (grid0.coords t) 1 = 3
      ∧ win0_2.xsize (grid0.coords t) 2 = 33)

/-- What a writing point writes back is its block of the result array. -/
theorem flushed_eq (t : Fin cfg0.N) (hf : (cfg0.win 2).flush t = true) :
    (dats m 0 c).flushed 2 t = ((cfg0.win 2).blk t).view.read (Elt Ideal) (result m c) := by
  have h1 : t.val % 36 = 35 := (flush0_2 t).mp hf
  show (cfg0.win 2).cut (grid0.coords t) ((dats m 0 c).after 2 t) = _
  rw [after0_2]
  funext y
  rw [View.read_apply]
  show (outsAt0 m c t.val t.isLt).1 y = result m c (((cfg0.win 2).blk t).view.emb y)
  rw [block_entry m c t h1 y]
  unfold result
  have hy0 : (y 0).val < 1 := by
    have hlt := (y 0).isLt
    have e : ((cfg0.win 2).xblock (grid0.coords t)).size 0 = 1 := (xsize_out t).1
    exact lt_of_lt_of_eq hlt e
  have e0 : ((((cfg0.win 2).blk t).view.emb y) 0).val = t.val / 36 := by
    show win0_2.index t 0 * 1 + 1 * (y 0).val = _
    rw [(index_out t).1]; omega
  have e1 : ((((cfg0.win 2).blk t).view.emb y) 1).val = (y 1).val := by
    show win0_2.index t 1 * 3 + 1 * (y 1).val = _
    rw [(index_out t).2.1]; omega
  have e2 : ((((cfg0.win 2).blk t).view.emb y) 2).val = (y 2).val := by
    show win0_2.index t 2 * 33 + 1 * (y 2).val = _
    rw [(index_out t).2.2]; omega
  rw [e0, e1, e2, show 36 * (t.val / 36) + 35 = t.val by omega]

/-- Every entry of the array is in the block its batch's last tile writes back. -/
theorem cover (i : ((cfg0.win 2).arr.view.loc (c.tc : Thread nD τ)).2.ty.Idx) :
    ∃ t : Fin cfg0.N, (cfg0.win 2).flush t = true ∧ i ∈ ((cfg0.win 2).blk t).view.set := by
  have hN : cfg0.N = 72 := N_0
  have hi0 : (i 0).val < 2 := (i 0).isLt
  have hi1 : (i 1).val < 3 := (i 1).isLt
  have hi2 : (i 2).val < 33 := (i 2).isLt
  refine ⟨⟨36 * (i 0).val + 35, by rw [hN]; omega⟩, (flush0_2 _).mpr (by show (36 * (i 0).val + 35) % 36 = 35; omega), ?_⟩
  generalize ht : (⟨36 * (i 0).val + 35, by rw [hN]; omega⟩ : Fin cfg0.N) = t
  have htv : t.val = 36 * (i 0).val + 35 := by rw [← ht]
  show i ∈ ((View.whole main_v2).slice (win0_2.rect t)).set
  rw [View.set_slice_whole, Rect.mem_set_unit]
  intro a
  match a with
  | ⟨0, _⟩ =>
    show win0_2.index t 0 * win0_2.size 0 ≤ (i 0).val ∧ (i 0).val < win0_2.index t 0 * win0_2.size 0 + win0_2.xsize (grid0.coords t) 0
    rw [(index_out t).1, (xsize_out t).1, show win0_2.size 0 = 1 from rfl, htv]; omega
  | ⟨1, _⟩ =>
    show win0_2.index t 1 * win0_2.size 1 ≤ (i 1).val ∧ (i 1).val < win0_2.index t 1 * win0_2.size 1 + win0_2.xsize (grid0.coords t) 1
    rw [(index_out t).2.1, (xsize_out t).2.1]; omega
  | ⟨2, _⟩ =>
    show win0_2.index t 2 * win0_2.size 2 ≤ (i 2).val ∧ (i 2).val < win0_2.index t 2 * win0_2.size 2 + win0_2.xsize (grid0.coords t) 2
    rw [(index_out t).2.2, (xsize_out t).2.2]; omega

/-- So the array ends holding the completed sums. -/
theorem final : (dats m 0 c).arrAt 2 cfg0.N = result m c :=
  (dats m 0 c).arrAt_eq_of_cover 2 (result m c) (flushed_eq m c) (cover c)

end Cert.KernelIdeal.Final

end
-- ==== Proof.Blocks.lean ====
/-
  Where a point's blocks sit in the arguments.

  Before the region the host reshapes the scores [2, 33, 96, 96, 96] to [2, 33, 884736] and the labels
  [2, 96, 96, 96] to [2, 1, 884736]: the three voxel axes are merged row-major, voxel (x, y, z) at flattened position
  (x · 96 + y) · 96 + z. The two input windows cut the flattened axis into 36 tiles of 24576 positions; at grid point
  `t` (batch `t / 36`, tile `t % 36`) entry (0, c, k) of the score block is entry
  (t / 36, c, (t % 36) · 24576 + k) of the reshaped scores, and likewise for the labels.
-/
import proofs.«165124_j10222022164824_2_alg».proof.Proof.Chain
import Idealize.ShloMosaic.Lib.StableHlo.Run

set_option maxRecDepth 16384

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.KernelIdeal.Chain

variable (m : (ℓ : Loc nD τ sig) → Buf (Elt Ideal) ℓ) (c : Dev nD)

/-- The scores and labels as launched. -/
abbrev scores : FVec Ideal S2x33x96x96x96 .f32 := m ((c : Thread nD τ).loc main_arg0)
abbrev labels : IVec S2x96x96x96 32 := m ((c : Thread nD τ).loc main_arg1)

/-- The arrays the windows read: the arguments reshaped. -/
theorem scores_flat : (V m c main_v0 : S2x33x884736.Idx → EReal)
    = shapeCast S2x33x884736 (scores m c) shapeCasts_S2x33x96x96x96_S2x33x884736 := by
  show StableHlo.after hostOps0 (fun b => m (c, b)) (Proc.devRef .tc main_v0) = _
  after_results
  rfl

theorem labels_flat : (V m c main_v1 : S2x1x884736.Idx → BitVec 32)
    = shapeCast S2x1x884736 (labels m c) shapeCasts_S2x96x96x96_S2x1x884736 := by
  show StableHlo.after hostOps0 (fun b => m (c, b)) (Proc.devRef .tc main_v1) = _
  after_results
  rfl

/-- The reshaped scores at batch `b`, class `cls`, flattened position of voxel (x, y, z). -/
theorem scores_flat_apply (b : Fin 2) (cls : Fin 33) (x y z : Fin 96) (n : Fin 884736)
    (hn : n.val = (x.val * 96 + y.val) * 96 + z.val) :
    (V m c main_v0 : S2x33x884736.Idx → EReal) (ix3 b cls n) = scores m c (ix5 b cls x y z) := by
  rw [scores_flat]
  exact shapeCast_apply (scores m c) _ (ix3 b cls n) (ix5 b cls x y z) (by
    rw [Shape.rowMajor_val_five, Shape.rowMajor_val_three]
    show (((b.val * 33 + cls.val) * 96 + x.val) * 96 + y.val) * 96 + z.val = (b.val * 33 + cls.val) * 884736 + n.val
    rw [hn]; ring)

/-- The reshaped labels at batch `b`, flattened position of voxel (x, y, z). -/
theorem labels_flat_apply (b : Fin 2) (x y z : Fin 96) (n : Fin 884736)
    (hn : n.val = (x.val * 96 + y.val) * 96 + z.val) :
    (V m c main_v1 : S2x1x884736.Idx → BitVec 32) (ix3 b (0 : Fin 1) n) = labels m c (ix4 b x y z) := by
  rw [labels_flat]
  exact shapeCast_apply (labels m c) _ (ix3 b (0 : Fin 1) n) (ix4 b x y z) (by
    rw [Shape.rowMajor_val_four, Shape.rowMajor_val_three]
    show ((b.val * 96 + x.val) * 96 + y.val) * 96 + z.val = (b.val * 1 + 0) * 884736 + n.val
    rw [hn]; ring)

/-- The block indices of the two input windows at point `t`: batch `t / 36`, tile `t % 36`. -/
theorem index_scores : ∀ t : Fin cfg0.N, win0_0.index t 0 = t.val / 36 ∧ win0_0.index t 1 = 0 ∧ win0_0.index t 2 = t.val % 36 :=
  (by decide +kernel : ∀ t : Fin grid0.N, win0_0.index t 0 = t.val / 36 ∧ win0_0.index t 1 = 0 ∧ win0_0.index t 2 = t.val % 36)
theorem index_labels : ∀ t : Fin cfg0.N, win0_1.index t 0 = t.val / 36 ∧ win0_1.index t 1 = 0 ∧ win0_1.index t 2 = t.val % 36 :=
  (by decide +kernel : ∀ t : Fin grid0.N, win0_1.index t 0 = t.val / 36 ∧ win0_1.index t 1 = 0 ∧ win0_1.index t 2 = t.val % 36)

/-- The score block at point `t`, entry (0, cls, k). -/
theorem scores_block (t : Fin cfg0.N) (cls : Fin 33) (k : Fin 24576) (b : Fin 2) (n : Fin 884736)
    (hb : b.val = t.val / 36) (hn : n.val = (t.val % 36) * 24576 + k.val) :
    scoresAt m c t (ix3 (0 : Fin 1) cls k) = (V m c main_v0 : S2x33x884736.Idx → EReal) (ix3 b cls n) := by
  unfold scoresAt iblk
  rw [View.read_apply]
  show V m c main_v0 _ = V m c main_v0 _
  refine congrArg (V m c main_v0) (funext fun a => Fin.ext ?_)
  match a with
  | ⟨0, _⟩ => show win0_0.index t 0 * 1 + 1 * 0 = b.val; rw [(index_scores t).1, hb]; omega
  | ⟨1, _⟩ => show win0_0.index t 1 * 33 + 1 * cls.val = cls.val; rw [(index_scores t).2.1]; omega
  | ⟨2, _⟩ => show win0_0.index t 2 * 24576 + 1 * k.val = n.val; rw [(index_scores t).2.2, hn]; omega

/-- The label block at point `t`, entry (0, 0, k). -/
theorem labels_block (t : Fin cfg0.N) (k : Fin 24576) (b : Fin 2) (n : Fin 884736)
    (hb : b.val = t.val / 36) (hn : n.val = (t.val % 36) * 24576 + k.val) :
    labelsAt m c t (ix3 (0 : Fin 1) (0 : Fin 1) k) = (V m c main_v1 : S2x1x884736.Idx → BitVec 32) (ix3 b (0 : Fin 1) n) := by
  unfold labelsAt iblk
  rw [View.read_apply]
  show V m c main_v1 _ = V m c main_v1 _
  refine congrArg (V m c main_v1) (funext fun a => Fin.ext ?_)
  match a with
  | ⟨0, _⟩ => show win0_1.index t 0 * 1 + 1 * 0 = b.val; rw [(index_labels t).1, hb]; omega
  | ⟨1, _⟩ => show win0_1.index t 1 * 1 + 1 * 0 = 0; rw [(index_labels t).2.1]
  | ⟨2, _⟩ => show win0_1.index t 2 * 24576 + 1 * k.val = n.val; rw [(index_labels t).2.2, hn]; omega

end Cert.KernelIdeal.Blocks

end
-- ==== Proof.Sums.lean ====
/-
  Re-indexing the sums over voxels.

  The reference sums, for each class `c`, over every index (b, c', x, y, z) of the 5-dimensional score array whose
  class coordinate c' is `c`; the kernel sums, for each batch `b`, over the flattened voxel position
  n = (x · 96 + y) · 96 + z, tile by tile. Both are the same four-fold sum over b, x, y, z, because a sum over a
  finite index set may be taken in any order and grouping (the extended reals under + are a commutative monoid).
-/
import proofs.«165124_j10222022164824_2_alg».proof.Proof.Spec
import Idealize.ShloMosaic.Lib.ValueIdx

noncomputable section

open scoped BigOperators
open Idealize.ShloMosaic Idealize.ShloMosaic.ValueIdx

namespace Cert.Dice

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-- The sum over all voxels of all batches of a quantity given per batch and voxel coordinates. -/
def voxelSum {M : Type*} [AddCommMonoid M] (f : Fin 2 → Fin 96 → Fin 96 → Fin 96 → M) : M :=
  ∑ b : Fin 2, ∑ x : Fin 96, ∑ y : Fin 96, ∑ z : Fin 96, f b x y z

/-- Summing over the indices of the [2, 33, 96, 96, 96] array whose class coordinate is `cls` is summing over the
    batch and the three voxel coordinates, the class coordinate held at `cls`. -/
theorem sum_class {M : Type*} [AddCommMonoid M] (f : (⟨5, ![2, 33, 96, 96, 96]⟩ : Shape).Idx → M) (cls : Fin 33) :
    ∑ i ∈ Finset.univ.filter (fun i : (⟨5, ![2, 33, 96, 96, 96]⟩ : Shape).Idx => (i 1).val = cls.val), f i
      = voxelSum fun b x y z => f (ix5 b cls x y z) := by
  rw [Finset.sum_filter, sum_idx5]
  unfold voxelSum
  refine Finset.sum_congr rfl fun b _ => ?_
  rw [Finset.sum_eq_single cls]
  · refine Finset.sum_congr rfl fun x _ => Finset.sum_congr rfl fun y _ => Finset.sum_congr rfl fun z _ => ?_
    exact if_pos rfl
  · intro c' _ hc'
    refine Finset.sum_eq_zero fun x _ => Finset.sum_eq_zero fun y _ => Finset.sum_eq_zero fun z _ => ?_
    exact if_neg fun h => hc' (Fin.ext h)
  · intro h; exact absurd (Finset.mem_univ cls) h

/-- A sum over the flattened voxel position is the triple sum over the voxel coordinates, position
    `(x · 96 + y) · 96 + z`. -/
theorem sum_voxels {M : Type*} [AddCommMonoid M] (G : Fin 884736 → M) :
    ∑ n : Fin 884736, G n
      = ∑ x : Fin 96, ∑ y : Fin 96, ∑ z : Fin 96, G ⟨(x.val * 96 + y.val) * 96 + z.val, by
          have := x.isLt; have := y.isLt; have := z.isLt; omega⟩ := by
  rw [sum_tiles 96 9216 884736 rfl G]
  refine Finset.sum_congr rfl fun x _ => ?_
  rw [sum_tiles 96 96 9216 rfl (fun r : Fin 9216 => G ⟨x.val * 9216 + r.val, by have := x.isLt; have := r.isLt; omega⟩)]
  refine Finset.sum_congr rfl fun y _ => Finset.sum_congr rfl fun z _ => congrArg G (Fin.ext ?_)
  show x.val * 9216 + (y.val * 96 + z.val) = (x.val * 96 + y.val) * 96 + z.val
  omega

/-- A sum over the flattened voxel position is the sum over the 36 tiles of the sums over a tile's 24576
    positions, position `j · 24576 + k`. -/
theorem sum_tiles_voxels {M : Type*} [AddCommMonoid M] (G : Fin 884736 → M) :
    ∑ j : Fin 36, ∑ k : Fin 24576, G ⟨j.val * 24576 + k.val, by have := j.isLt; have := k.isLt; omega⟩
      = ∑ n : Fin 884736, G n :=
  (sum_tiles 36 24576 884736 rfl G).symm

end Cert.Dice

end
-- ==== Proof.Bridge.lean ====
/-
  A batch's completed sums, as sums over the batch's voxels.

  The running sum after a batch's last tile adds the contributions of its 36 tiles. Tile `j` contributes the sum
  over its 24576 positions `k`, which are positions `j · 24576 + k` of the flattened voxel axis; so the 36 tile
  sums together are one sum over all 884736 flattened positions, and that is the triple sum over the voxel
  coordinates (x, y, z), position (x · 96 + y) · 96 + z. Only the order and grouping of a finite sum change.
-/
import proofs.«165124_j10222022164824_2_alg».proof.Proof.Blocks
import proofs.«165124_j10222022164824_2_alg».proof.Proof.Sums

set_option maxRecDepth 16384

noncomputable section

open scoped BigOperators
open Idealize.ShloMosaic Idealize.ShloMosaic.TcCoe Idealize.SL.Sem Idealize.ShloMosaic.ValueIdx

namespace Cert.KernelIdeal.Bridge

open Cert.KernelIdeal Cert.KernelIdeal.Gen Cert.KernelIdeal.Tiles Cert.KernelIdeal.Chain Cert.KernelIdeal.Blocks Cert.Dice

variable (m : (ℓ : Loc nD τ sig) → Buf (Elt Ideal) ℓ) (c : Dev nD)

/-- The reshaped arrays the windows read. -/
abbrev flatScores : S2x33x884736.Idx → EReal := V m c main_v0
abbrev flatLabels : S2x1x884736.Idx → BitVec 32 := V m c main_v1

/-- Point `36 b + j` is a point of the grid. -/
theorem point_lt (b : Fin 2) (j : Fin 36) : 36 * b.val + j.val < cfg0.N := by
  rw [show cfg0.N = 72 from N_0]; have := b.isLt; have := j.isLt; omega

/-- The regrouping, for any per-point addend `T`: if the addend of tile `j` of batch `b` is the sum over the tile's
    positions of a function `G` of the flattened position, and `G` at the position of voxel (x, y, z) is `H x y z`, then
    the batch's completed running sum is the triple sum of `H`. -/
theorem regroup {M : Type*} [AddCommMonoid M] (b : Fin 2) (T : ℕ → M) (G : Fin 884736 → M) (H : Fin 96 → Fin 96 → Fin 96 → M)
    (hT : ∀ j : Fin 36, T (36 * b.val + j.val)
      = ∑ k : Fin 24576, G ⟨j.val * 24576 + k.val, by have := j.isLt; have := k.isLt; omega⟩)
    (hG : ∀ x y z : Fin 96, G ⟨(x.val * 96 + y.val) * 96 + z.val, by have := x.isLt; have := y.isLt; have := z.isLt; omega⟩ = H x y z) :
    runningSum T (36 * b.val + 35) = ∑ x : Fin 96, ∑ y : Fin 96, ∑ z : Fin 96, H x y z := by
  rw [runningSum_last, Finset.sum_range]
  exact (Finset.sum_congr rfl fun j _ => hT j).trans ((sum_tiles_voxels G).trans ((sum_voxels G).trans
    (Finset.sum_congr rfl fun x _ => Finset.sum_congr rfl fun y _ => Finset.sum_congr rfl fun z _ => hG x y z)))

/-- Masked scores of class `cls` over batch `b`. -/
theorem masked_batch (b : Fin 2) (cls : Fin 33) :
    runningSum (fun t => tMasked m c t cls) (36 * b.val + 35)
      = ∑ x : Fin 96, ∑ y : Fin 96, ∑ z : Fin 96, scores m c (ix5 b cls x y z) * ind (labels m c (ix4 b x y z)) cls.val := by
  refine regroup b (fun t => tMasked m c t cls)
    (fun n : Fin 884736 => flatScores m c (ix3 b cls n) * ind (flatLabels m c (ix3 b (0 : Fin 1) n)) cls.val)
    (fun x y z => scores m c (ix5 b cls x y z) * ind (labels m c (ix4 b x y z)) cls.val) ?_ ?_
  · intro j
    have hj := j.isLt
    show tMasked m c (36 * b.val + j.val) cls = _
    unfold tMasked
    rw [dif_pos (point_lt b j)]
    unfold masked
    refine Finset.sum_congr rfl fun k _ => ?_
    rw [scores_block m c ⟨36 * b.val + j.val, point_lt b j⟩ cls k b ⟨j.val * 24576 + k.val, by have := k.isLt; omega⟩
          (by show b.val = (36 * b.val + j.val) / 36; omega)
          (by show j.val * 24576 + k.val = (36 * b.val + j.val) % 36 * 24576 + k.val; rw [show (36 * b.val + j.val) % 36 = j.val by omega]),
      labels_block m c ⟨36 * b.val + j.val, point_lt b j⟩ k b ⟨j.val * 24576 + k.val, by have := k.isLt; omega⟩
          (by show b.val = (36 * b.val + j.val) / 36; omega)
          (by show j.val * 24576 + k.val = (36 * b.val + j.val) % 36 * 24576 + k.val; rw [show (36 * b.val + j.val) % 36 = j.val by omega])]
  · intro x y z
    have hn : (x.val * 96 + y.val) * 96 + z.val < 884736 := by have := x.isLt; have := y.isLt; have := z.isLt; omega
    exact congrArg₂ (fun (a : EReal) (l : BitVec 32) => a * ind l cls.val)
      (scores_flat_apply m c b cls x y z ⟨_, hn⟩ rfl) (labels_flat_apply m c b x y z ⟨_, hn⟩ rfl)

/-- Squared scores of class `cls` over batch `b`. -/
theorem squares_batch (b : Fin 2) (cls : Fin 33) :
    runningSum (fun t => tSquares m c t cls) (36 * b.val + 35)
      = ∑ x : Fin 96, ∑ y : Fin 96, ∑ z : Fin 96, scores m c (ix5 b cls x y z) * scores m c (ix5 b cls x y z) := by
  refine regroup b (fun t => tSquares m c t cls)
    (fun n : Fin 884736 => flatScores m c (ix3 b cls n) * flatScores m c (ix3 b cls n))
    (fun x y z => scores m c (ix5 b cls x y z) * scores m c (ix5 b cls x y z)) ?_ ?_
  · intro j
    have hj := j.isLt
    show tSquares m c (36 * b.val + j.val) cls = _
    unfold tSquares
    rw [dif_pos (point_lt b j)]
    unfold squares
    refine Finset.sum_congr rfl fun k _ => ?_
    rw [scores_block m c ⟨36 * b.val + j.val, point_lt b j⟩ cls k b ⟨j.val * 24576 + k.val, by have := k.isLt; omega⟩
          (by show b.val = (36 * b.val + j.val) / 36; omega)
          (by show j.val * 24576 + k.val = (36 * b.val + j.val) % 36 * 24576 + k.val; rw [show (36 * b.val + j.val) % 36 = j.val by omega])]
  · intro x y z
    have hn : (x.val * 96 + y.val) * 96 + z.val < 884736 := by have := x.isLt; have := y.isLt; have := z.isLt; omega
    exact congrArg₂ (fun (a a' : EReal) => a * a')
      (scores_flat_apply m c b cls x y z ⟨_, hn⟩ rfl) (scores_flat_apply m c b cls x y z ⟨_, hn⟩ rfl)

/-- The number of voxels of batch `b` labelled `cls`. -/
theorem counts_batch (b : Fin 2) (cls : Fin 33) :
    runningSum (fun t => tCounts m c t cls) (36 * b.val + 35)
      = ∑ x : Fin 96, ∑ y : Fin 96, ∑ z : Fin 96, ind (labels m c (ix4 b x y z)) cls.val := by
  refine regroup b (fun t => tCounts m c t cls)
    (fun n : Fin 884736 => ind (flatLabels m c (ix3 b (0 : Fin 1) n)) cls.val)
    (fun x y z => ind (labels m c (ix4 b x y z)) cls.val) ?_ ?_
  · intro j
    have hj := j.isLt
    show tCounts m c (36 * b.val + j.val) cls = _
    unfold tCounts
    rw [dif_pos (point_lt b j)]
    unfold counts
    refine Finset.sum_congr rfl fun k _ => ?_
    rw [labels_block m c ⟨36 * b.val + j.val, point_lt b j⟩ k b ⟨j.val * 24576 + k.val, by have := k.isLt; omega⟩
          (by show b.val = (36 * b.val + j.val) / 36; omega)
          (by show j.val * 24576 + k.val = (36 * b.val + j.val) % 36 * 24576 + k.val; rw [show (36 * b.val + j.val) % 36 = j.val by omega])]
  · intro x y z
    have hn : (x.val * 96 + y.val) * 96 + z.val < 884736 := by have := x.isLt; have := y.isLt; have := z.isLt; omega
    exact congrArg (fun l : BitVec 32 => ind l cls.val) (labels_flat_apply m c b x y z ⟨_, hn⟩ rfl)

end Cert.KernelIdeal.Bridge

end
-- ==== Proof.RefSums.lean ====
/-
  The reference's three per-class sums, read at a class.

  The reference builds the one-hot array by comparing the label of each voxel (broadcast along the class axis)
  with the class number (an iota broadcast along every other axis), converts it to a float, and reduces three
  arrays over the batch axis and the three voxel axes at once: scores times one-hot, scores squared, and the
  one-hot itself. Read at class `c`, each reduction is its initial value (zero) plus the sum, over the batch and
  the voxel coordinates, of the array at (b, c, x, y, z); the one-hot there is the indicator of "the label of voxel
  (b, x, y, z) is c".
-/
import proofs.«165124_j10222022164824_2_alg».proof.Proof.Gen.ReferenceIdeal.Read
import proofs.«165124_j10222022164824_2_alg».proof.Proof.Sums
import Idealize.ShloMosaic.Lib.IdealHost
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Dice

/-- Dropping the four reduced axes of an index keeps its class coordinate. -/
theorem drop_class (i : S2x33x96x96x96.Idx) (cls : Fin 33) :
    reducesTo_S2x33x96x96x96_S33_d0_2_3_4.drop i = ix1 cls ↔ (i 1).val = cls.val := by
  have e : (reducesTo_S2x33x96x96x96_S33_d0_2_3_4.drop i (0 : Fin 1)).val = (i 1).val := rfl
  constructor
  · intro h
    rw [← e, h]
  · intro h
    funext a
    obtain rfl : a = (0 : Fin 1) := Subsingleton.elim _ _
    exact Fin.ext (e.trans h)

/-- A four-axis reduction of the [2, 33, 96, 96, 96] array read at class `cls`: the initial value plus the sum over
    batch and voxel coordinates. -/
theorem reduce_class (f : FVec Ideal S2x33x96x96x96 .f32) (init : FVec Ideal S_ .f32) (cls : Fin 33) :
    Host.reduceAdd f init reducesTo_S2x33x96x96x96_S33_d0_2_3_4 h_S_ (ix1 cls)
      = init (Shape.Idx.first h_S_) + voxelSum fun b x y z => f (ix5 b cls x y z) := by
  rw [hostReduceAdd_apply]
  unfold Ideal.hostReduceAdd
  refine congrArg (init (Shape.Idx.first h_S_) + ·) ?_
  rw [Finset.filter_congr (fun i _ => drop_class i cls)]
  exact sum_class f cls

variable (x0 : (⟨S2x33x96x96x96, .f32⟩ : BufTy).Contents (Elt Ideal)) (x1 : (⟨S2x96x96x96, .i32⟩ : BufTy).Contents (Elt Ideal))

/-- The one-hot array at (b, c, x, y, z) is the indicator of "voxel (b, x, y, z) is labelled c". -/
theorem one_hot_apply (b : Fin 2) (cls : Fin 33) (x y z : Fin 96) :
    val_main_v6 (F := Ideal) x1 (ix5 b cls x y z) = ind (x1 (ix4 b x y z)) cls.val := by
  rw [val_main_v6_apply, val_main_v5_apply, val_main_v3_apply, val_main_v0_apply, val_main_v4_apply, val_main_v2_apply,
    val_main_v1_apply]
  have e1 : idx_main_v0 (idx_main_v3 (ix5 b cls x y z)) = ix4 b x y z := by
    funext a
    match a with
    | ⟨0, _⟩ => rfl
    | ⟨1, _⟩ => rfl
    | ⟨2, _⟩ => rfl
    | ⟨3, _⟩ => rfl
  rw [e1]
  exact unsigned_bit_eq_ind _ _

/-- The zero every reduction starts from. -/
theorem init_zero : (constant (F := Ideal) S_ .f32 0x00000000#32) (Shape.Idx.first h_S_) = 0 :=
  Ideal.ofBits_zero_f32

/-- Scores of the voxels labelled `cls`. -/
theorem masked_ref (cls : Fin 33) :
    val_main_v8 (F := Ideal) x0 x1 (ix1 cls)
      = 0 + voxelSum fun b x y z => x0 (ix5 b cls x y z) * ind (x1 (ix4 b x y z)) cls.val := by
  unfold val_main_v8
  refine (reduce_class _ _ cls).trans ?_
  unfold val_main_cst
  rw [init_zero]
  refine congrArg (0 + ·) ?_
  unfold voxelSum
  refine Finset.sum_congr rfl fun b _ => Finset.sum_congr rfl fun x _ => Finset.sum_congr rfl fun y _ =>
    Finset.sum_congr rfl fun z _ => ?_
  show val_main_v7 (F := Ideal) x0 x1 (ix5 b cls x y z) = x0 (ix5 b cls x y z) * ind (x1 (ix4 b x y z)) cls.val
  rw [val_main_v7_apply, one_hot_apply]
  rfl

/-- Squared scores of class `cls`. -/
theorem squares_ref (cls : Fin 33) :
    val_main_v10 (F := Ideal) x0 (ix1 cls)
      = 0 + voxelSum fun b x y z => x0 (ix5 b cls x y z) * x0 (ix5 b cls x y z) := by
  unfold val_main_v10
  refine (reduce_class _ _ cls).trans ?_
  unfold val_main_cst_0
  rw [init_zero]
  rfl

/-- The number of voxels labelled `cls`. -/
theorem counts_ref (cls : Fin 33) :
    val_main_v11 (F := Ideal) x1 (ix1 cls) = 0 + voxelSum fun b x y z => ind (x1 (ix4 b x y z)) cls.val := by
  unfold val_main_v11
  refine (reduce_class _ _ cls).trans ?_
  unfold val_main_cst_1
  rw [init_zero]
  refine congrArg (0 + ·) ?_
  unfold voxelSum
  refine Finset.sum_congr rfl fun b _ => Finset.sum_congr rfl fun x _ => Finset.sum_congr rfl fun y _ =>
    Finset.sum_congr rfl fun z _ => ?_
  exact one_hot_apply x1 b cls x y z

end Cert.ReferenceIdeal.RefValue

end
-- ==== Proof.Join.lean ====
/-
  The kernel's three per-class sums are the reference's.

  After the region the host cuts row `r` out of the [2, 3, 33] result array, views it [2, 33], and sums over the batch
  axis from zero: at class `c` that is 0 + ∑_b (entry (b, r, c)) = 0 + ∑_b ∑_{x,y,z} (summand), the sum over all
  voxels of all batches — the same extended real the reference's four-axis reduction gives at `c`.
-/
import proofs.«165124_j10222022164824_2_alg».proof.Proof.Final
import proofs.«165124_j10222022164824_2_alg».proof.Proof.Bridge
import proofs.«165124_j10222022164824_2_alg».proof.Proof.RefSums
import Idealize.ShloMosaic.Lib.IdealHost

set_option maxRecDepth 16384

noncomputable section

open scoped BigOperators
open Idealize.ShloMosaic Idealize.ShloMosaic.TcCoe Idealize.SL.Sem Idealize.ShloMosaic.ValueIdx

namespace Cert.KernelIdeal.Join

open Cert.KernelIdeal Cert.KernelIdeal.Gen Cert.KernelIdeal.Chain Cert.KernelIdeal.Output Cert.KernelIdeal.Final
  Cert.KernelIdeal.Blocks Cert.KernelIdeal.Bridge Cert.Dice

variable (m : (ℓ : Loc nD τ sig) → Buf (Elt Ideal) ℓ) (c : Dev nD)

/-! ## The result array's three rows -/

theorem result_masked (b : Fin 2) (cls : Fin 33) :
    result m c (ix3 b (0 : Fin 3) cls) = runningSum (fun t => tMasked m c t cls) (36 * b.val + 35) := by
  unfold result entry
  show (if h : cls.val < 33 then pick _ _ _ 0 (ix2 (⟨cls.val, h⟩ : Fin 33) (0 : Fin 1)) else 0) = _
  rw [dif_pos cls.isLt]
  unfold pick
  rw [if_pos rfl]
  rfl

theorem result_squares (b : Fin 2) (cls : Fin 33) :
    result m c (ix3 b (1 : Fin 3) cls) = runningSum (fun t => tSquares m c t cls) (36 * b.val + 35) := by
  unfold result entry
  show (if h : cls.val < 33 then pick _ _ _ 1 (ix2 (⟨cls.val, h⟩ : Fin 33) (0 : Fin 1)) else 0) = _
  rw [dif_pos cls.isLt]
  unfold pick
  rw [if_neg (by decide), if_pos rfl]
  rfl

theorem result_counts (b : Fin 2) (cls : Fin 33) :
    result m c (ix3 b (2 : Fin 3) cls) = runningSum (fun t => tCounts m c t cls) (36 * b.val + 35) := by
  unfold result entry
  show (if h : cls.val < 33 then pick _ _ _ 2 (ix2 (⟨cls.val, h⟩ : Fin 33) (0 : Fin 1)) else 0) = _
  rw [dif_pos cls.isLt]
  unfold pick
  rw [if_neg (by decide), if_neg (by decide)]
  rfl

/-! ## A row cut out, viewed [2, 33], and summed over the batch axis -/

/-- Row `r` of a [2, 3, 33] array, cut out and viewed [2, 33], at (b, c). -/
theorem row_apply (R : S2x3x33.Idx → EReal) (r : Fin 3) (off : Fin 3 → Nat) (hoff : off = ![0, r.val, 0])
    (h : S2x3x33.Slices off S2x1x33) (b : Fin 2) (cls : Fin 33) :
    shapeCast S2x33 (extractStridedSlice S2x1x33 off R h) shapeCasts_S2x1x33_S2x33 (ix2 b cls) = R (ix3 b r cls) := by
  subst hoff
  refine (shapeCast_apply _ shapeCasts_S2x1x33_S2x33 (ix2 b cls) (ix3 b (0 : Fin 1) cls) (by
    rw [Shape.rowMajor_val_three, Shape.rowMajor_val_two]
    show (b.val * 1 + 0) * 33 + cls.val = b.val * 33 + cls.val
    omega)).trans ?_
  exact extractStridedSlice_apply _ R h (ix3 b (0 : Fin 1) cls) (ix3 b r cls) (fun a => match a with
    | ⟨0, _⟩ => by show b.val = 0 + b.val; omega
    | ⟨1, _⟩ => by show r.val = r.val + 0; omega
    | ⟨2, _⟩ => by show cls.val = 0 + cls.val; omega)

/-- The host's sum over the batch axis of a [2, 33] array, from zero, at class `cls`. -/
theorem batch_sum (X : FVec Ideal S2x33 .f32) (cls : Fin 33) :
    Host.reduceAdd X (constant S_ .f32 0x00000000#32) reducesTo_S2x33_S33_d0 h_S_ (ix1 cls) = 0 + ∑ b : Fin 2, X (ix2 b cls) := by
  rw [hostReduceAdd_apply, Ideal.hostReduceAdd_single reducesTo_S2x33_S33_d0 (by decide : S2x33.Reduces [0] S33)]
  show Ideal.ofBits .f32 0x00000000#32 + ∑ b : Fin 2, X _ = _
  rw [Ideal.ofBits_zero_f32]
  refine congrArg (0 + ·) (Finset.sum_congr rfl fun b _ => congrArg X ?_)
  funext a
  match a with
  | ⟨0, _⟩ => rfl
  | ⟨1, _⟩ => rfl

/-! ## The three sums -/

/-- The reference's per-class sums, of the kernel's own arguments. -/
abbrev refMasked : Cert.ReferenceIdeal.S33.Idx → EReal := Cert.ReferenceIdeal.Read.val_main_v8 (F := Ideal) (scores m c) (labels m c)
abbrev refSquares : Cert.ReferenceIdeal.S33.Idx → EReal := Cert.ReferenceIdeal.Read.val_main_v10 (F := Ideal) (scores m c)
abbrev refCounts : Cert.ReferenceIdeal.S33.Idx → EReal := Cert.ReferenceIdeal.Read.val_main_v11 (F := Ideal) (labels m c)

theorem masked_eq :
    Host.reduceAdd (F := Ideal) (shapeCast S2x33 (extractStridedSlice S2x1x33 ![0, 0, 0] (result m c) slices_S2x3x33_S2x1x33_0_0_0) shapeCasts_S2x1x33_S2x33)
        (constant S_ .f32 0x00000000#32) reducesTo_S2x33_S33_d0 h_S_ = refMasked m c := by
  funext j
  obtain ⟨cls, rfl⟩ : ∃ cls : Fin 33, j = ix1 cls := ⟨j 0, eq_ix1 j⟩
  rw [batch_sum]
  refine Eq.trans ?_ (Cert.ReferenceIdeal.RefValue.masked_ref (scores m c) (labels m c) cls).symm
  refine congrArg (0 + ·) ?_
  unfold voxelSum
  refine Finset.sum_congr rfl fun b _ => ?_
  refine (row_apply (result m c) (0 : Fin 3) ![0, 0, 0] rfl slices_S2x3x33_S2x1x33_0_0_0 b cls).trans ?_
  rw [result_masked, masked_batch]

theorem squares_eq :
    Host.reduceAdd (F := Ideal) (shapeCast S2x33 (extractStridedSlice S2x1x33 ![0, 1, 0] (result m c) slices_S2x3x33_S2x1x33_0_1_0) shapeCasts_S2x1x33_S2x33)
        (constant S_ .f32 0x00000000#32) reducesTo_S2x33_S33_d0 h_S_ = refSquares m c := by
  funext j
  obtain ⟨cls, rfl⟩ : ∃ cls : Fin 33, j = ix1 cls := ⟨j 0, eq_ix1 j⟩
  rw [batch_sum]
  refine Eq.trans ?_ (Cert.ReferenceIdeal.RefValue.squares_ref (scores m c) cls).symm
  refine congrArg (0 + ·) ?_
  unfold voxelSum
  refine Finset.sum_congr rfl fun b _ => ?_
  refine (row_apply (result m c) (1 : Fin 3) ![0, 1, 0] rfl slices_S2x3x33_S2x1x33_0_1_0 b cls).trans ?_
  rw [result_squares, squares_batch]

theorem counts_eq :
    Host.reduceAdd (F := Ideal) (shapeCast S2x33 (extractStridedSlice S2x1x33 ![0, 2, 0] (result m c) slices_S2x3x33_S2x1x33_0_2_0) shapeCasts_S2x1x33_S2x33)
        (constant S_ .f32 0x00000000#32) reducesTo_S2x33_S33_d0 h_S_ = refCounts m c := by
  funext j
  obtain ⟨cls, rfl⟩ : ∃ cls : Fin 33, j = ix1 cls := ⟨j 0, eq_ix1 j⟩
  rw [batch_sum]
  refine Eq.trans ?_ (Cert.ReferenceIdeal.RefValue.counts_ref (labels m c) cls).symm
  refine congrArg (0 + ·) ?_
  unfold voxelSum
  refine Finset.sum_congr rfl fun b _ => ?_
  refine (row_apply (result m c) (2 : Fin 3) ![0, 2, 0] rfl slices_S2x3x33_S2x1x33_0_2_0 b cls).trans ?_
  rw [result_counts, counts_batch]

end Cert.KernelIdeal.Join

end
-- ==== Proof.KernelRun.lean ====
/-
  The kernel's run, read: the loss it returns, as a function of its arguments.

  After the region the host takes the three rows of the result array, sums each over the batch axis, and computes
  mean_c (1 - (2·I_c + s) / (Q_c + L_c + s)) from the three per-class sums I, Q, L. Those three sums are the
  reference's (the previous module), and everything the host does with them is, operation for operation and
  literal for literal, what the reference does with its own: so the returned scalar is the reference's function of
  the same arguments.
-/
import proofs.«165124_j10222022164824_2_alg».proof.Proof.Join
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.KernelIdeal.Final Cert.KernelIdeal.Blocks Cert.KernelIdeal.Join

variable (m : (ℓ : Loc nD τ sig) → Buf (Elt Ideal) ℓ) (ρ : Dev nD → PrngReg)

/-- What both programs do with the three per-class sums: mean over the classes of 1 - (2·I + s) / (Q + L + s), with
    the programs' own float literals. -/
def lossOf (I Q L : FVec Ideal S33 .f32) : FVec Ideal S_ .f32 :=
  Host.divf
    (Host.reduceAdd
      (subf (broadcastInDim S33 ![] bcast_S_S33 (constant S_ .f32 0x3F800000#32))
        (Host.divf
          (addf (mulf (broadcastInDim S33 ![] bcast_S_S33 (constant S_ .f32 0x40000000#32)) I)
            (broadcastInDim S33 ![] bcast_S_S33 (constant S_ .f32 0x3727C5AC#32)))
          (addf (addf Q L) (broadcastInDim S33 ![] bcast_S_S33 (constant S_ .f32 0x3727C5AC#32)))))
      (constant S_ .f32 0x00000000#32) reducesTo_S33_S_d0 h_S_)
    (constant S_ .f32 0x42040000#32)

/-- The loss, as the reference computes it, of the kernel's arguments as launched. -/
def loss (c : Dev nD) : Buf (Elt Ideal) ((c.tc : Thread nD τ).loc main_v23) :=
  Cert.ReferenceIdeal.Read.val_main_v23 (F := Ideal) (scores m c) (labels m c)

set_option maxHeartbeats 2000000 in
/-- What the host operations after the region leave in the result buffer. -/
theorem tail_eq (c : Dev nD) :
    Pipeline.afterTail₀ cfgs (dats m) 0 (V0 m) [hostOps1] c main_v23 = loss m c := by
  unfold Pipeline.afterTail₀
  show StableHlo.after hostOps1 _ (Proc.devRef .tc main_v23) = _
  after_results_simp
  rw [(Pipeline.withArrays_arr spec0 launch0.win.arr_inj c _ _ 2).trans (final m c)]
  show lossOf
      (Host.reduceAdd (F := Ideal) (shapeCast S2x33 (extractStridedSlice S2x1x33 ![0, 0, 0] (result m c) slices_S2x3x33_S2x1x33_0_0_0) shapeCasts_S2x1x33_S2x33)
        (constant S_ .f32 0x00000000#32) reducesTo_S2x33_S33_d0 h_S_)
      (Host.reduceAdd (F := Ideal) (shapeCast S2x33 (extractStridedSlice S2x1x33 ![0, 1, 0] (result m c) slices_S2x3x33_S2x1x33_0_1_0) shapeCasts_S2x1x33_S2x33)
        (constant S_ .f32 0x00000000#32) reducesTo_S2x33_S33_d0 h_S_)
      (Host.reduceAdd (F := Ideal) (shapeCast S2x33 (extractStridedSlice S2x1x33 ![0, 2, 0] (result m c) slices_S2x3x33_S2x1x33_0_2_0) shapeCasts_S2x1x33_S2x33)
        (constant S_ .f32 0x00000000#32) reducesTo_S2x33_S33_d0 h_S_) = _
  rw [masked_eq, squares_eq, counts_eq]
  rfl

/-- The run: the result buffer ends at the loss, the arguments unchanged. -/
theorem run : θ_run defs (onTc (τ := τ) (main (F := Ideal))) ⟨m, fun _ => 0, ρ⟩ (fun r => ∀ c : Dev nD,
      r.2.mem ((c.tc : Thread nD τ).loc main_v23) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v23 (Pipeline.mem_restRefs_of main_v23 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelRun

end
-- ==== Proof.lean ====
/-
  The Dice loss, computed tile by tile, against the Dice loss computed in one pass: equal on the extended reals.

  For scores x[b, c, v] and labels l[b, v] (b a batch, c one of 33 classes, v a voxel) both programs return

      mean over c of  1 - (2·I_c + s) / (Q_c + L_c + s),
      I_c = ∑_{b,v} x[b,c,v]·[l[b,v] = c],   Q_c = ∑_{b,v} x[b,c,v]²,   L_c = ∑_{b,v} [l[b,v] = c],

  with the same float literals for 2, s, 1 and 33. The kernel walks each batch's voxels in 36 tiles of 24576,
  keeping I, Q, L per batch in three accumulators that it zeroes at the batch's first tile and copies out at its
  last, and the host adds the two batches; the reference reduces over batch and voxel axes at once. The two agree
  because a finite sum of extended reals does not depend on order or grouping, x·1 = x and x·0 = 0 hold for every
  extended real, and from I, Q, L on the two programs apply the same operations. Finiteness of the inputs is not
  needed for the equality; it is only the claims' stated precondition.
-/
import proofs.«165124_j10222022164824_2_alg».proof.Defs
import proofs.«165124_j10222022164824_2_alg».proof.Proof.Gen.Kernel
import proofs.«165124_j10222022164824_2_alg».proof.Proof.Gen.Kernel.Skeleton
import proofs.«165124_j10222022164824_2_alg».proof.Proof.Gen.Kernel.Launch
import proofs.«165124_j10222022164824_2_alg».proof.Proof.Gen.Kernel.Points
import proofs.«165124_j10222022164824_2_alg».proof.Proof.Gen.Kernel.Frame
import proofs.«165124_j10222022164824_2_alg».proof.Proof.Gen.KernelIdeal
import proofs.«165124_j10222022164824_2_alg».proof.Proof.Gen.KernelIdeal.Skeleton
import proofs.«165124_j10222022164824_2_alg».proof.Proof.Gen.KernelIdeal.Launch
import proofs.«165124_j10222022164824_2_alg».proof.Proof.Gen.KernelIdeal.Points
import proofs.«165124_j10222022164824_2_alg».proof.Proof.Gen.KernelIdeal.Frame
import proofs.«165124_j10222022164824_2_alg».proof.Proof.Gen.ReferenceIdeal
import proofs.«165124_j10222022164824_2_alg».proof.Proof.Gen.ReferenceIdeal.Run
import proofs.«165124_j10222022164824_2_alg».proof.Proof.Gen.ReferenceIdeal.Read
import proofs.«165124_j10222022164824_2_alg».proof.Proof.Gen.Pre_finite_inputs
import proofs.«165124_j10222022164824_2_alg».proof.Proof.KernelRun
import Idealize.ShloMosaic.Adequacy
import Idealize.ShloMosaic.Init

noncomputable section

namespace Cert.Proof

open Idealize.ShloMosaic Idealize.SL.Sem

/-- Each program runs to the end without a fault and leaves its arguments as launched. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories agreeing on the arguments, both idealized programs end with the same loss: the reference's
    function of the arguments. -/
theorem algebraic : Cert.algebraic_KernelIdeal_ReferenceIdeal := by
  intro m ρ m' ρ' _ hagree
  refine ⟨fun c => Cert.KernelIdeal.KernelRun.loss m c, Cert.KernelIdeal.KernelRun.run m ρ, ?_⟩
  refine (θ_run Cert.ReferenceIdeal.defs _ _).mono (fun _ h c => ⟨?_, (h c).2⟩)
    (Cert.ReferenceIdeal.Value.run (F := Ideal) m' ρ')
  refine (h c).1.trans ?_
  rw [(hagree c).1, (hagree c).2]
  exact Cert.ReferenceIdeal.Read.val_main_v23_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
